-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024 : S_.BroadcastsInDim S1024 (![] : Fin 0 → Fin S1024.rank)
  reducesTo_S1024_S_d0 : S1024.ReducesTo [0] S_
  bcast_S_S100000x512 : S_.BroadcastsInDim S100000x512 (![] : Fin 0 → Fin S100000x512.rank)
  reducesTo_S100000x512_S_d0_1 : S100000x512.ReducesTo [0, 1] S_

variable [Facts]

def fn_part1 {F : FTy → Type} [FloatOps F] (main_v13 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .une main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v13 main_v18
  main_v19

def fn {F : FTy → Type} [FloatOps F] (main_arg0 : FVec F S1024x512 .f32) (main_arg1 : FVec F S1024 .f32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S100000x512 .f32 := Host.absf main_arg2
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_cst_4 : FVec F S_ .f32 := constant S_ .f32 0x3F800000#32
  let main_v14 : FVec F S1024 .f32 := broadcastInDim S1024 ![] bcast_S_S1024 main_cst_4
  let main_v15 : FVec F S1024 .f32 := subf main_v14 main_arg1
  let main_cst_5 : FVec F S_ .f32 := constant S_ .f32 0x00000000#32
  fn_part1 (F := F) main_v13 main_v15 main_cst_5
-- ==== Kernel.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S1024x5 : Shape := ⟨2, ![1024, 5]⟩
abbrev S1024x8 : Shape := ⟨2, ![1024, 8]⟩
abbrev S100000 : Shape := ⟨1, ![100000]⟩
abbrev S100000x1 : Shape := ⟨2, ![100000, 1]⟩
abbrev S512x512 : Shape := ⟨2, ![512, 512]⟩
abbrev S1000x512 : Shape := ⟨2, ![1000, 512]⟩
abbrev S1000x1 : Shape := ⟨2, ![1000, 1]⟩
abbrev S512x8 : Shape := ⟨2, ![512, 8]⟩
abbrev S512x1 : Shape := ⟨2, ![512, 1]⟩
abbrev S512x1000 : Shape := ⟨2, ![512, 1000]⟩
abbrev S1x1000 : Shape := ⟨2, ![1, 1000]⟩
abbrev S512 : Shape := ⟨1, ![512]⟩

abbrev nBuf : Space → Nat
  | .hbm => 44
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S1024, .f32⟩
  | .hbm, ⟨2, _⟩ => ⟨S100000x512, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x1, .f32⟩
  | .hbm, ⟨32, _⟩ => ⟨S1024x1, .f32⟩
  | .hbm, ⟨33, _⟩ => ⟨S1024x1, .f32⟩
  | .hbm, ⟨34, _⟩ => ⟨S1024x1, .f32⟩
  | .hbm, ⟨35, _⟩ => ⟨S1024x5, .f32⟩
  | .hbm, ⟨36, _⟩ => ⟨S_, .i32⟩
  | .hbm, ⟨37, _⟩ => ⟨S_, .f32⟩
  | .hbm, ⟨38, _⟩ => ⟨S1024x8, .f32⟩
  | .hbm, ⟨39, _⟩ => ⟨S100000x512, .f32⟩
  | .hbm, ⟨40, _⟩ => ⟨S_, .f32⟩
  | .hbm, ⟨41, _⟩ => ⟨S100000, .f32⟩
  | .hbm, ⟨42, _⟩ => ⟨S100000x1, .f32⟩
  | .hbm, ⟨43, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S1000x512, .f32⟩
  | .local _ .vmem, ⟨3, _⟩ => ⟨S1000x512, .f32⟩
  | .local _ .vmem, ⟨4, _⟩ => ⟨S1000x1, .f32⟩
  | .local _ .vmem, ⟨5, _⟩ => ⟨S1000x1, .f32⟩
  | .local _ .vmem, ⟨6, _⟩ => ⟨S512x8, .f32⟩
  | .local _ .vmem, ⟨7, _⟩ => ⟨S512x8, .f32⟩
  | .local _ .vmem, ⟨8, _⟩ => ⟨S512x512, .f32⟩
  | .local _ .vmem, ⟨9, _⟩ => ⟨S512x512, .f32⟩
  | .local _ .vmem, ⟨10, _⟩ => ⟨S512x1, .f32⟩
  | .local _ .vmem, ⟨11, _⟩ => ⟨S512x1, .f32⟩
  | .local _ .vmem, ⟨12, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v54 : BitVec 1 := Scalar.cmpi .eq arg1 c99_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S1024 : S_.BroadcastsInDim S1024 (![] : Fin 0 → Fin S1024.rank)
  reducesTo_S1024x512_S1024_d1 : S1024x512.ReducesTo [1] S1024
  h_S_ : 0 < S_.numel
  bcast_S1024_S1024x1_0 : S1024.BroadcastsInDim S1024x1 (![0] : Fin 1 → Fin S1024x1.rank)
  concatenates_S1024x1_S1024x1_S1024x1_S1024x1_S1024x1_S1024x5_d1 : Shape.Concatenates [S1024x1, S1024x1, S1024x1, S1024x1, S1024x1] S1024x5 1
  pads_S1024x5_S1024x8_000_030 : S1024x5.Pads (![0, 0] : Fin 2 → Nat) ![0, 3] ![0, 0] S1024x8
  reducesTo_S100000x512_S100000_d1 : S100000x512.ReducesTo [1] S100000
  shapeCasts_S100000_S100000x1 : S100000.ShapeCasts S100000x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1000x512_S1000x512_0_0 : ∀ a, (![0, 0] : Fin 2 → Nat) a + S1000x512.size a ≤ S1000x512.size a
  h_S1000x512 : 0 < S1000x512.numel
  transposes_S1000x512_p1_0_S512x1000 : S1000x512.Transposes [1, 0] S512x1000
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  transposes_S1000x1_p1_0_S1x1000 : S1000x1.Transposes [1, 0] S1x1000
  inb_S512x8_S512x8_0_0 : ∀ a, (![0, 0] : Fin 2 → Nat) a + S512x8.size a ≤ S512x8.size a
  h_S512x8 : 0 < S512x8.numel
  shapeCasts_S512x8_S512x8 : S512x8.ShapeCasts S512x8
  slices_S512x8_o0_0_S512x1 : S512x8.Slices ![0, 0] S512x1
  slices_S512x8_o0_1_S512x1 : S512x8.Slices ![0, 1] S512x1
  slices_S512x8_o0_2_S512x1 : S512x8.Slices ![0, 2] S512x1
  broadcasts_S512x1_S512x1000 : S512x1.Broadcasts S512x1000
  broadcasts_S1x1000_S512x1000 : S1x1000.Broadcasts S512x1000
  reduces_S512x1000_S512 : S512x1000.Reduces [1] S512
  shapeCasts_S512_S512x1 : S512.ShapeCasts S512x1
  bitsLt_bf16_f32 : FTy.bits .bf16 < FTy.bits .f32
  broadcasts_S512x1_S512x512 : S512x1.Broadcasts S512x512
  slices_S512x8_o0_3_S512x1 : S512x8.Slices ![0, 3] S512x1
  slices_S512x8_o0_4_S512x1 : S512x8.Slices ![0, 4] S512x1
  dot_S512x512_S512x1000_S512x1000_1_0_0_1_n_n_wf : DotDims.WF S512x512 S512x1000 S512x1000 [1] [0] [0] [1] [] []
  dot_S512x1000_S1000x512_S512x512_1_0_0_1_n_n_wf : DotDims.WF S512x1000 S1000x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S1024x8.size a
  hwx0_3 : ∀ i : grid0.Coords, EltTy.bits .f32 = 32 ∨ (Rect.block (s := S1024x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S1024x512.size a
  hwx0_4 : ∀ i : grid0.Coords, EltTy.bits .f32 = 32 ∨ (Rect.block (s := S1024x512) S512x512.size (cc0_transform_4 i) (hinb0_4 i)).WholeWords (EltTy.packing .f32)

variable [Facts₀]

def dot_S512x512_S512x1000_S512x1000_1_0_0_1_n_n : DotDims S512x512 S512x1000 S512x1000 where
  lhsContracting := [1]
  rhsContracting := [0]
  lhsNonContracting := [0]
  rhsNonContracting := [1]
  lhsBatch := []
  rhsBatch := []
  wf := dot_S512x512_S512x1000_S512x1000_1_0_0_1_n_n_wf
def dot_S512x1000_S1000x512_S512x512_1_0_0_1_n_n : DotDims S512x1000 S1000x512 S512x512 where
  lhsContracting := [1]
  rhsContracting := [0]
  lhsNonContracting := [0]
  rhsNonContracting := [1]
  lhsBatch := []
  rhsBatch := []
  wf := dot_S512x1000_S1000x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S100000 : Shape := ⟨1, ![100000]⟩
abbrev S1024x100000 : Shape := ⟨2, ![1024, 100000]⟩
abbrev S1024x1 : Shape := ⟨2, ![1024, 1]⟩
abbrev S1x100000 : Shape := ⟨2, ![1, 100000]⟩

abbrev nBuf : Space → Nat
  | .hbm => 70
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .f32⟩
  | .hbm, ⟨2, _⟩ => ⟨S100000x512, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S100000x512, .f32⟩
  | .hbm, ⟨12, _⟩ => ⟨S_, .f32⟩
  | .hbm, ⟨13, _⟩ => ⟨S100000, .f32⟩
  | .hbm, ⟨14, _⟩ => ⟨S1024x512, .f32⟩
  | .hbm, ⟨15, _⟩ => ⟨S_, .f32⟩
  | .hbm, ⟨16, _⟩ => ⟨S1024, .f32⟩
  | .hbm, ⟨17, _⟩ => ⟨S1024x100000, .f32⟩
  | .hbm, ⟨18, _⟩ => ⟨S1024x1, .f32⟩
  | .hbm, ⟨19, _⟩ => ⟨S1024x1, .f32⟩
  | .hbm, ⟨20, _⟩ => ⟨S_, .f32⟩
  | .hbm, ⟨21, _⟩ => ⟨S1024x1, .f32⟩
  | .hbm, ⟨22, _⟩ => ⟨S1024x1, .f32⟩
  | .hbm, ⟨23, _⟩ => ⟨S1024x100000, .f32⟩
  | .hbm, ⟨24, _⟩ => ⟨S1024x100000, .f32⟩
  | .hbm, ⟨25, _⟩ => ⟨S1024x100000, .f32⟩
  | .hbm, ⟨26, _⟩ => ⟨S1024x100000, .f32⟩
  | .hbm, ⟨27, _⟩ => ⟨S1024, .f32⟩
  | .hbm, ⟨28, _⟩ => ⟨S1024x1, .f32⟩
  | .hbm, ⟨29, _⟩ => ⟨S1x100000, .f32⟩
  | .hbm, ⟨30, _⟩ => ⟨S1024x100000, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024x1, .f32⟩
  | .hbm, ⟨42, _⟩ => ⟨S1024x100000, .f32⟩
  | .hbm, ⟨43, _⟩ => ⟨S1024x100000, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024x1, .f32⟩
  | .hbm, ⟨50, _⟩ => ⟨S1024x100000, .f32⟩
  | .hbm, ⟨51, _⟩ => ⟨S1024x100000, .f32⟩
  | .hbm, ⟨52, _⟩ => ⟨S1024x100000, .f32⟩
  | .hbm, ⟨53, _⟩ => ⟨S_, .f32⟩
  | .hbm, ⟨54, _⟩ => ⟨S1024, .f32⟩
  | .hbm, ⟨55, _⟩ => ⟨S1024x1, .f32⟩
  | .hbm, ⟨56, _⟩ => ⟨S1024x100000, .f32⟩
  | .hbm, ⟨57, _⟩ => ⟨S1024x100000, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1024x1, .f32⟩
  | .hbm, ⟨62, _⟩ => ⟨S1024x100000, .f32⟩
  | .hbm, ⟨63, _⟩ => ⟨S1024x100000, .f32⟩
  | .hbm, ⟨64, _⟩ => ⟨S1024x512, .f32⟩
  | .hbm, ⟨65, _⟩ => ⟨S1024, .f32⟩
  | .hbm, ⟨66, _⟩ => ⟨S1024x1, .f32⟩
  | .hbm, ⟨67, _⟩ => ⟨S1024x512, .f32⟩
  | .hbm, ⟨68, _⟩ => ⟨S1024x512, .f32⟩
  | .hbm, ⟨69, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  reducesTo_S100000x512_S100000_d1 : S100000x512.ReducesTo [1] S100000
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x100000_0_1 : S1024x1.BroadcastsInDim S1024x100000 (![0, 1] : Fin 2 → Fin S1024x100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S1024x1_S1024x512_0_1 : S1024x1.BroadcastsInDim S1024x512 (![0, 1] : Fin 2 → Fin S1024x512.rank)
  dot_S1024x512_S100000x512_S1024x100000_1_1_0_0_n_n_wf : DotDims.WF S1024x512 S100000x512 S1024x100000 [1] [1] [0] [0] [] []
  dot_S1024x100000_S100000x512_S1024x512_1_0_0_1_n_n_wf : DotDims.WF S1024x100000 S100000x512 S1024x512 [1] [0] [0] [1] [] []

variable [Facts₀]

def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf
def dot_S1024x100000_S100000x512_S1024x512_1_0_0_1_n_n : DotDims S1024x100000 S100000x512 S1024x512 where
  lhsContracting := [1]
  rhsContracting := [0]
  lhsNonContracting := [0]
  rhsNonContracting := [1]
  lhsBatch := []
  rhsBatch := []
  wf := dot_S1024x100000_S100000x512_S1024x512_1_0_0_1_n_n_wf

class Facts : Prop extends Facts₀ where

variable [Facts]
-- ==== Proof.FrWKit.lean ====
/-
  The launch side of the kernel's run: the program's @main is three stretches of host operations (the per-row
  coefficients and their packing into eight columns, the padding, the squared norms of the dataset rows) followed by
  one pallas_call on a 2 x 100 grid. This module names the arrays as the region finds them, each window's block at a
  grid point, the two conditions the body branches on (first tile of a row block: reset the running maximum, the
  normaliser and the accumulator; last tile: normalise and store), where the output window is idle, and the
  three scratch buffers the kernel carries from one grid point to the next.
-/
import proofs.«117692_j34153579937938_2_alg».proof.Proof.Gen.Kernel.Launch
import proofs.«117692_j34153579937938_2_alg».proof.Proof.Gen.Kernel.Skeleton
import proofs.«117692_j34153579937938_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is its host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the array at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the array at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the array at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body's first branch (reset the carried state): the tile index within the row block is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- The body's second branch (normalise and store the output block): the tile index is the last, 99. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the output window is idle (nothing is stored into it) and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S512x512 .f32 := (Memref.whole cc0_stg4_0 : Memref sig .tc .vmem S512x512 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
/-- The three scratch buffers: the running maximum, the normaliser, the accumulator. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x512 .f32 := Memref.whole cc0_scratch2
abbrev VS0_0 : View sig .tc .vmem S512x1 .f32 := scM0_0.view
abbrev VS0_1 : View sig .tc .vmem S512x1 .f32 := scM0_1.view
abbrev VS0_2 : View sig .tc .vmem S512x512 .f32 := scM0_2.view

/-- The class invariant of the launch, spelt out: the three scratch buffers owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.FrWRunB.lean ====
/-
  The kernel body at a grid point that is neither the first nor the last tile of its row block: no reset, no output.
  Run on whole memrefs holding the four input blocks, the (idle) output buffer and the three scratch buffers at what
  the point before left, it returns the inputs and the output buffer untouched and each scratch buffer with the
  stores the run met written over it. The lists of stored pieces are found by the run itself.
-/
import proofs.«117692_j34153579937938_2_alg».proof.Proof.FrWKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i)
    (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    Σ' (L4 : List (View.Piece (Elt F) S512x512 .f32)) (LS0 : List (View.Piece (Elt F) S512x1 .f32)) (LS1 : List (View.Piece (Elt F) S512x1 .f32)), { LS2 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.FrWRunA.lean ====
/-
  The kernel body at the first tile of a row block (and not the last): the running maximum is reset to minus
  infinity, the normaliser and the accumulator to zero, then the tile is folded in. The scratch buffers may hold
  anything on entry; the output buffer is idle and handed back untouched.
-/
import proofs.«117692_j34153579937938_2_alg».proof.Proof.FrWRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i)
    (x0 : Vec F S512x512 .f32) (x1 : Vec F S1000x512 .f32) (x2 : Vec F S1000x1 .f32) (x3 : Vec F S512x8 .f32) :
    Σ' (L4 : List (View.Piece (Elt F) S512x512 .f32)) (LS0 : List (View.Piece (Elt F) S512x1 .f32)) (LS1 : List (View.Piece (Elt F) S512x1 .f32)), { LS2 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.FrWRunC.lean ====
/-
  The kernel body at the last tile of a row block (never the first: a row block has 100 tiles): the tile is folded in,
  then the accumulator is divided by the normaliser, scaled, added to the scaled input block and stored into the
  output buffer, which may hold anything on entry.
-/
import proofs.«117692_j34153579937938_2_alg».proof.Proof.FrWRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i)
    (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    Σ' (L4 : List (View.Piece (Elt F) S512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Fr

end
-- ==== Proof.FrWData.lean ====
/-
  What the kernel's buffers hold point by point. For each of the three cases of the body (first tile / a middle tile /
  last tile of a row block) the run of that case found the stores into each scratch buffer and into the output
  buffer; they cover the buffers, so reading them back gives the buffers' contents. `outsAt0` threads these through
  the grid: after point `n` the output buffer and the three scratch buffers (running maximum, normaliser,
  accumulator) hold what the case of point `n` leaves, computed from the point's input blocks and — except at a
  first tile, which resets — from what point `n - 1` left in the scratch buffers. The proof data of the launch follow.
-/
import proofs.«117692_j34153579937938_2_alg».proof.Proof.FrWRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output buffer (nothing is stored: a placeholder nothing consults, the window being idle there). -/
def out0_A_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x512 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

/-- Case A's stores into scratch 0 cover it. -/
theorem scover0_A_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S512x1.size (by sl_kernel_rfl) y

/-- What case A leaves in scratch 0: its stores read back. -/
def sout0_A_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.1)

/-- Case A's stores into scratch 1 cover it. -/
theorem scover0_A_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S512x1.size (by sl_kernel_rfl) y

/-- What case A leaves in scratch 1: its stores read back. -/
def sout0_A_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.1)

/-- Case A's stores into scratch 2 cover it. -/
theorem scover0_A_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) (y : S512x512.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S512x512.size (by sl_kernel_rfl) y

/-- What case A leaves in scratch 2: its stores read back. -/
def sout0_A_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x512 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.2.1)

/-- What case B leaves in the output buffer (nothing is stored: a placeholder nothing consults, the window being idle there). -/
def out0_B_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1 xs2).1)

/-- Case B's stores into scratch 0 cover it. -/
theorem scover0_B_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What case B leaves in scratch 0: its stores read back. -/
def sout0_B_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).2.1)

/-- Case B's stores into scratch 1 cover it. -/
theorem scover0_B_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What case B leaves in scratch 1: its stores read back. -/
def sout0_B_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.2.1)

/-- Case B's stores into scratch 2 cover it. -/
theorem scover0_B_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x512.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.2.1 S512x512.size (by sl_kernel_rfl) y

/-- What case B leaves in scratch 2: its stores read back. -/
def sout0_B_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.2.1)

/-- What case C leaves in the output buffer: its store read back. -/
def out0_C_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1 xs2).1)

/-- Case C's stores into scratch 0 cover it. -/
theorem scover0_C_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What case C leaves in scratch 0: its stores read back. -/
def sout0_C_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1 xs2).2.1)

/-- Case C's stores into scratch 1 cover it. -/
theorem scover0_C_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What case C leaves in scratch 1: its stores read back. -/
def sout0_C_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1 xs2).2.2.1)

/-- Case C's stores into scratch 2 cover it. -/
theorem scover0_C_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x512.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.2.1 S512x512.size (by sl_kernel_rfl) y

/-- What case C leaves in scratch 2: its stores read back. -/
def sout0_C_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 x3 xs0 xs1 xs2).2.2.2.1)

/-- The last tile's store covers the output buffer. -/
theorem cover0_C_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x512.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).1 S512x512.size (by sl_kernel_rfl) y

/-! ## What the buffers hold after each point -/

/-- After point `n`: (output buffer, running maximum, normaliser, accumulator). -/
def outsAt0 (c : Dev nD) : (n : ℕ) → n < cfg0.N → Vec F S512x512 .f32 × Vec F S512x1 .f32 × Vec F S512x1 .f32 × Vec F S512x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 100 = 0 then
      if h1 : (n + 1) % 100 = 99 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 100 = 99 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 100 = 0) (h1 : ¬t.val % 100 = 99) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 100 = 0) (h1 : ¬t.val % 100 = 99) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 100 = 0) (h1 : t.val % 100 = 99) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant carried between points: before the first point the scratch buffers hold anything; afterwards
    each holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data of the launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Fr

end
-- ==== Proof.FrWBody.lean ====
/-
  The body obligation at a generic grid point and the run of the whole program. At a point the pipeline hands the
  body its four input blocks (each staging buffer holds its block of the array, fetched at this point or kept from an
  earlier one), the output buffer, and — through the invariant — the three scratch buffers at what the point before
  left (anything at the very first point). Which of the three cases applies is decided by the point's number modulo
  100; that case's run then gives back the buffers at the contents `outsAt0` names.
-/
import proofs.«117692_j34153579937938_2_alg».proof.Proof.FrWData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 100 = 0
  · by_cases h1 : t.val % 100 = 99
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 100 = 99
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 200 := N_0; omega)

set_option backward.isDefEq.respectTransparency.types false in
/-- Every weakly fair execution of @main terminates, and at the end every array of the pipeline holds what the
    library computes from the proof data, every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the three argument arrays end as launched. (Arguments 0 and 2 are staged by windows 0 and 1;
    argument 1 is read by the host operations only.) -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩) (run_main m ρ)

end Cert.Kernel.Fr

end
-- ==== Proof.FrKit.lean ====
/-
  The launch side of the kernel's run: the program's @main is three stretches of host operations (the per-row
  coefficients and their packing into eight columns, the padding, the squared norms of the dataset rows) followed by
  one pallas_call on a 2 x 100 grid. This module names the arrays as the region finds them, each window's block at a
  grid point, the two conditions the body branches on (first tile of a row block: reset the running maximum, the
  normaliser and the accumulator; last tile: normalise and store), where the output window is idle, and the
  three scratch buffers the kernel carries from one grid point to the next.
-/
import proofs.«117692_j34153579937938_2_alg».proof.Proof.Gen.KernelIdeal.Launch
import proofs.«117692_j34153579937938_2_alg».proof.Proof.Gen.KernelIdeal.Skeleton
import proofs.«117692_j34153579937938_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is its host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the array at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the array at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the array at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body's first branch (reset the carried state): the tile index within the row block is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- The body's second branch (normalise and store the output block): the tile index is the last, 99. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the output window is idle (nothing is stored into it) and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S512x512 .f32 := (Memref.whole cc0_stg4_0 : Memref sig .tc .vmem S512x512 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
/-- The three scratch buffers: the running maximum, the normaliser, the accumulator. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x512 .f32 := Memref.whole cc0_scratch2
abbrev VS0_0 : View sig .tc .vmem S512x1 .f32 := scM0_0.view
abbrev VS0_1 : View sig .tc .vmem S512x1 .f32 := scM0_1.view
abbrev VS0_2 : View sig .tc .vmem S512x512 .f32 := scM0_2.view

/-- The class invariant of the launch, spelt out: the three scratch buffers owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.FrRunB.lean ====
/-
  The kernel body at a grid point that is neither the first nor the last tile of its row block: no reset, no output.
  Run on whole memrefs holding the four input blocks, the (idle) output buffer and the three scratch buffers at what
  the point before left, it returns the inputs and the output buffer untouched and each scratch buffer with the
  stores the run met written over it. The lists of stored pieces are found by the run itself.
-/
import proofs.«117692_j34153579937938_2_alg».proof.Proof.FrKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i)
    (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    Σ' (L4 : List (View.Piece (Elt F) S512x512 .f32)) (LS0 : List (View.Piece (Elt F) S512x1 .f32)) (LS1 : List (View.Piece (Elt F) S512x1 .f32)), { LS2 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.FrRunA.lean ====
/-
  The kernel body at the first tile of a row block (and not the last): the running maximum is reset to minus
  infinity, the normaliser and the accumulator to zero, then the tile is folded in. The scratch buffers may hold
  anything on entry; the output buffer is idle and handed back untouched.
-/
import proofs.«117692_j34153579937938_2_alg».proof.Proof.FrRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i)
    (x0 : Vec F S512x512 .f32) (x1 : Vec F S1000x512 .f32) (x2 : Vec F S1000x1 .f32) (x3 : Vec F S512x8 .f32) :
    Σ' (L4 : List (View.Piece (Elt F) S512x512 .f32)) (LS0 : List (View.Piece (Elt F) S512x1 .f32)) (LS1 : List (View.Piece (Elt F) S512x1 .f32)), { LS2 : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.FrRunC.lean ====
/-
  The kernel body at the last tile of a row block (never the first: a row block has 100 tiles): the tile is folded in,
  then the accumulator is divided by the normaliser, scaled, added to the scaled input block and stored into the
  output buffer, which may hold anything on entry.
-/
import proofs.«117692_j34153579937938_2_alg».proof.Proof.FrRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i)
    (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    Σ' (L4 : List (View.Piece (Elt F) S512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.FrData.lean ====
/-
  What the kernel's buffers hold point by point. For each of the three cases of the body (first tile / a middle tile /
  last tile of a row block) the run of that case found the stores into each scratch buffer and into the output
  buffer; they cover the buffers, so reading them back gives the buffers' contents. `outsAt0` threads these through
  the grid: after point `n` the output buffer and the three scratch buffers (running maximum, normaliser,
  accumulator) hold what the case of point `n` leaves, computed from the point's input blocks and — except at a
  first tile, which resets — from what point `n - 1` left in the scratch buffers. The proof data of the launch follow.
-/
import proofs.«117692_j34153579937938_2_alg».proof.Proof.FrRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output buffer (nothing is stored: a placeholder nothing consults, the window being idle there). -/
def out0_A_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x512 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

/-- Case A's stores into scratch 0 cover it. -/
theorem scover0_A_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S512x1.size (by sl_kernel_rfl) y

/-- What case A leaves in scratch 0: its stores read back. -/
def sout0_A_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.1)

/-- Case A's stores into scratch 1 cover it. -/
theorem scover0_A_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S512x1.size (by sl_kernel_rfl) y

/-- What case A leaves in scratch 1: its stores read back. -/
def sout0_A_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.1)

/-- Case A's stores into scratch 2 cover it. -/
theorem scover0_A_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) (y : S512x512.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S512x512.size (by sl_kernel_rfl) y

/-- What case A leaves in scratch 2: its stores read back. -/
def sout0_A_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) : Vec F S512x512 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.2.1)

/-- What case B leaves in the output buffer (nothing is stored: a placeholder nothing consults, the window being idle there). -/
def out0_B_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1 xs2).1)

/-- Case B's stores into scratch 0 cover it. -/
theorem scover0_B_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What case B leaves in scratch 0: its stores read back. -/
def sout0_B_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).2.1)

/-- Case B's stores into scratch 1 cover it. -/
theorem scover0_B_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What case B leaves in scratch 1: its stores read back. -/
def sout0_B_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.2.1)

/-- Case B's stores into scratch 2 cover it. -/
theorem scover0_B_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x512.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.2.1 S512x512.size (by sl_kernel_rfl) y

/-- What case B leaves in scratch 2: its stores read back. -/
def sout0_B_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.2.1)

/-- What case C leaves in the output buffer: its store read back. -/
def out0_C_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1 xs2).1)

/-- Case C's stores into scratch 0 cover it. -/
theorem scover0_C_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What case C leaves in scratch 0: its stores read back. -/
def sout0_C_0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1 xs2).2.1)

/-- Case C's stores into scratch 1 cover it. -/
theorem scover0_C_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What case C leaves in scratch 1: its stores read back. -/
def sout0_C_1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1 xs2).2.2.1)

/-- Case C's stores into scratch 2 cover it. -/
theorem scover0_C_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x512.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.2.1 S512x512.size (by sl_kernel_rfl) y

/-- What case C leaves in scratch 2: its stores read back. -/
def sout0_C_2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) : Vec F S512x512 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 x3 xs0 xs1 xs2).2.2.2.1)

/-- The last tile's store covers the output buffer. -/
theorem cover0_C_4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) (y : S512x512.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).1 S512x512.size (by sl_kernel_rfl) y

/-! ## What the buffers hold after each point -/

/-- After point `n`: (output buffer, running maximum, normaliser, accumulator). -/
def outsAt0 (c : Dev nD) : (n : ℕ) → n < cfg0.N → Vec F S512x512 .f32 × Vec F S512x1 .f32 × Vec F S512x1 .f32 × Vec F S512x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 100 = 0 then
      if h1 : (n + 1) % 100 = 99 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 100 = 99 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 100 = 0) (h1 : ¬t.val % 100 = 99) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 100 = 0) (h1 : ¬t.val % 100 = 99) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 100 = 0) (h1 : t.val % 100 = 99) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant carried between points: before the first point the scratch buffers hold anything; afterwards
    each holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data of the launch -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Fr

end
-- ==== Proof.FrPieces.lean ====
/-
  What each case of the body leaves in the scratch buffers and in the output buffer, as the body's own arithmetic
  (the payload functions of the kernel's skeleton) applied to the blocks it loaded: the new running maximum, the
  new normaliser, the new accumulator, and at the last tile the normalised, scaled output block. At a first tile the
  "old" values are the reset ones (minus infinity, zero, zero), which the body stored and read back.
-/
import proofs.«117692_j34153579937938_2_alg».proof.Proof.FrData
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

theorem sA0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) :
    sout0_A_0 c i arg2 harg2 arg3 harg3 arg4 harg4 arg5 harg5 arg6 harg6 arg7 harg7 arg8 harg8 arg9 harg9 hc0 hc1 x0 x1 x2 x3 = k0_pay3 (k0_pay9 x1 x0 x2 x3 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sA1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) :
    sout0_A_1 c i arg2 harg2 arg3 harg3 arg4 harg4 arg5 harg5 arg6 harg6 arg7 harg7 arg8 harg8 arg9 harg9 hc0 hc1 x0 x1 x2 x3 = k0_pay1 (k0_pay12 x1 x0 x2 x3 (k0_pay5 (F := F)) (k0_pay5 (F := F)) (k0_pay6 (F := F))) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sA2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i) (x0 : Vec F S512x512 .f32) (x1 : Vec F S1000x512 .f32) (x2 : Vec F S1000x1 .f32) (x3 : Vec F S512x8 .f32) :
    sout0_A_2 c i arg2 harg2 arg3 harg3 arg4 harg4 arg5 harg5 arg6 harg6 arg7 harg7 arg8 harg8 arg9 harg9 hc0 hc1 x0 x1 x2 x3 = k0_pay2 x1 (k0_pay10 x1 x0 x2 x3 (k0_pay5 (F := F)) (k0_pay5 (F := F))) (k0_pay11 x1 x0 x2 x3 (k0_pay5 (F := F))) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sB0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    sout0_B_0 c i arg2 harg2 arg3 harg3 arg4 harg4 arg5 harg5 arg6 harg6 arg7 harg7 arg8 harg8 arg9 harg9 hc0 hc1 x0 x1 x2 x3 xs0 xs1 xs2 = k0_pay3 (k0_pay9 x1 x0 x2 x3 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sB1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay12 x1 x0 x2 x3 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sB2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    sout0_B_2 c i arg2 harg2 arg3 harg3 arg4 harg4 arg5 harg5 arg6 harg6 arg7 harg7 arg8 harg8 arg9 harg9 hc0 hc1 x0 x1 x2 x3 xs0 xs1 xs2 = k0_pay2 x1 (k0_pay10 x1 x0 x2 x3 xs0 xs0) (k0_pay11 x1 x0 x2 x3 xs0) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sC0 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    sout0_C_0 c i arg2 harg2 arg3 harg3 arg4 harg4 arg5 harg5 arg6 harg6 arg7 harg7 arg8 harg8 arg9 harg9 hc0 hc1 x0 x1 x2 x3 xs0 xs1 xs2 = k0_pay3 (k0_pay9 x1 x0 x2 x3 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sC1 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    sout0_C_1 c i arg2 harg2 arg3 harg3 arg4 harg4 arg5 harg5 arg6 harg6 arg7 harg7 arg8 harg8 arg9 harg9 hc0 hc1 x0 x1 x2 x3 xs0 xs1 xs2 = k0_pay1 (k0_pay12 x1 x0 x2 x3 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sC2 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    sout0_C_2 c i arg2 harg2 arg3 harg3 arg4 harg4 arg5 harg5 arg6 harg6 arg7 harg7 arg8 harg8 arg9 harg9 hc0 hc1 x0 x1 x2 x3 xs0 xs1 xs2 = k0_pay2 x1 (k0_pay10 x1 x0 x2 x3 xs0 xs0) (k0_pay11 x1 x0 x2 x3 xs0) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

theorem sC4 (c : Dev nD) (i : grid0.Coords) (arg2 : Memref sig .tc .vmem S512x512 .f32) (harg2 : arg2.IsWhole) (arg3 : Memref sig .tc .vmem S1000x512 .f32) (harg3 : arg3.IsWhole) (arg4 : Memref sig .tc .vmem S1000x1 .f32) (harg4 : arg4.IsWhole) (arg5 : Memref sig .tc .vmem S512x8 .f32) (harg5 : arg5.IsWhole) (arg6 : Memref sig .tc .vmem S512x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i) (x0 : Vec F S512x512 .f32) (x1 : Vec F S1000x512 .f32) (x2 : Vec F S1000x1 .f32) (x3 : Vec F S512x8 .f32) (xs0 : Vec F S512x1 .f32) (xs1 : Vec F S512x1 .f32) (xs2 : Vec F S512x512 .f32) :
    out0_C_4 c i arg2 harg2 arg3 harg3 arg4 harg4 arg5 harg5 arg6 harg6 arg7 harg7 arg8 harg8 arg9 harg9 hc0 hc1 x0 x1 x2 x3 xs0 xs1 xs2 = k0_pay4 x3 (k0_pay2 x1 (k0_pay10 x1 x0 x2 x3 xs0 xs0) (k0_pay11 x1 x0 x2 x3 xs0) xs2) (k0_pay1 (k0_pay12 x1 x0 x2 x3 xs0 xs0 xs1)) x0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S512x512) hz, View.ld_unit_zero (S := S1000x512) hz, View.ld_unit_zero (S := S1000x1) hz, View.ld_unit_zero (S := S512x8) hz, View.ld_unit_zero (S := S512x1) hz, View.canon_unit_zero (S := S512x1) hz, View.canon_cons_unit_zero (S := S512x1) hz, View.readCov_unit_zero (S := S512x1) _ hz, View.canon_unit_zero (S := S512x512) hz, View.canon_cons_unit_zero (S := S512x512) hz, View.readCov_unit_zero (S := S512x512) _ hz]

end Cert.KernelIdeal.Fr

end
-- ==== Proof.FrBody.lean ====
/-
  The body obligation at a generic grid point and the run of the whole program. At a point the pipeline hands the
  body its four input blocks (each staging buffer holds its block of the array, fetched at this point or kept from an
  earlier one), the output buffer, and — through the invariant — the three scratch buffers at what the point before
  left (anything at the very first point). Which of the three cases applies is decided by the point's number modulo
  100; that case's run then gives back the buffers at the contents `outsAt0` names.
-/
import proofs.«117692_j34153579937938_2_alg».proof.Proof.FrData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 100 = 0
  · by_cases h1 : t.val % 100 = 99
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 100 = 99
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 200 := N_0; omega)

set_option backward.isDefEq.respectTransparency.types false in
/-- Every weakly fair execution of @main terminates, and at the end every array of the pipeline holds what the
    library computes from the proof data, every other unscoped buffer what the region found. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the three argument arrays end as launched. (Arguments 0 and 2 are staged by windows 0 and 1;
    argument 1 is read by the host operations only.) -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩) (run_main m ρ)

end Cert.KernelIdeal.Fr

end
-- ==== Proof.Blocks.lean ====
/-
  Where a grid point's blocks sit in the arrays. Point `t` of the 2 x 100 grid is row block `t / 100` and tile
  `t % 100`: the batch rows and the coefficient columns are read 512 rows at a time at row block `t / 100`, the
  dataset and its norms 1000 rows at a time at tile `t % 100`, and the output block is row block `t / 100`. Every
  output row lies in the block of the last tile of its row block.
-/
import proofs.«117692_j34153579937938_2_alg».proof.Proof.FrBody
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem t_lt (t : Fin cfg0.N) : t.val < 200 := lt_of_lt_of_eq t.isLt (show cfg0.N = 200 from N_0)

/-- The global batch row of local row `p` at point `t`. -/
def rowOf (t : Fin cfg0.N) (p : Fin 512) : Fin 1024 := ⟨t.val / 100 * 512 + p.val, by have := t_lt t; have := p.isLt; omega⟩
/-- The global dataset row of local row `n` at point `t`. -/
def colOf (t : Fin cfg0.N) (n : Fin 1000) : Fin 100000 := ⟨t.val % 100 * 1000 + n.val, by have := n.isLt; omega⟩

/-- The printed index maps, decided over the grid. -/
theorem idx_facts : ∀ t : Fin cfg0.N,
    win0_0.index t (0 : Fin 2) = t.val / 100 ∧ win0_0.index t (1 : Fin 2) = 0
    ∧ win0_1.index t (0 : Fin 2) = t.val % 100 ∧ win0_1.index t (1 : Fin 2) = 0
    ∧ win0_2.index t (0 : Fin 2) = t.val % 100 ∧ win0_2.index t (1 : Fin 2) = 0
    ∧ win0_3.index t (0 : Fin 2) = t.val / 100 ∧ win0_3.index t (1 : Fin 2) = 0
    ∧ win0_4.index t (0 : Fin 2) = t.val / 100 ∧ win0_4.index t (1 : Fin 2) = 0 :=
  (by decide +kernel : ∀ t : Fin grid0.N, _)

/-- Window 0's block at point `t`, entry by entry, is the array as the region finds it at the global index. -/
theorem blk0_apply (c : Dev nD) (t : Fin cfg0.N) (p : Fin 512) (k : Fin 512) :
    iblk m c 0 t (ix2 p k) = V m c main_arg0 (ix2 (rowOf t p) (k)) := by
  unfold iblk
  show V m c main_arg0 (((cfg0.win 0).blk t).view.emb (ix2 p k)) = _
  refine congrArg (V m c main_arg0) (funext fun a => Fin.ext ?_)
  obtain ⟨e00, e01, e10, e11, e20, e21, e30, e31, e40, e41⟩ := idx_facts t
  match a with
  | ⟨0, _⟩ => show win0_0.index t (0 : Fin 2) * 512 + 1 * p.val = t.val / 100 * 512 + p.val; omega
  | ⟨1, _⟩ => show win0_0.index t (1 : Fin 2) * 512 + 1 * k.val = k.val; omega

/-- Window 1's block at point `t`, entry by entry, is the array as the region finds it at the global index. -/
theorem blk1_apply (c : Dev nD) (t : Fin cfg0.N) (p : Fin 1000) (k : Fin 512) :
    iblk m c 1 t (ix2 p k) = V m c main_arg2 (ix2 (colOf t p) (k)) := by
  unfold iblk
  show V m c main_arg2 (((cfg0.win 1).blk t).view.emb (ix2 p k)) = _
  refine congrArg (V m c main_arg2) (funext fun a => Fin.ext ?_)
  obtain ⟨e00, e01, e10, e11, e20, e21, e30, e31, e40, e41⟩ := idx_facts t
  match a with
  | ⟨0, _⟩ => show win0_1.index t (0 : Fin 2) * 1000 + 1 * p.val = t.val % 100 * 1000 + p.val; omega
  | ⟨1, _⟩ => show win0_1.index t (1 : Fin 2) * 512 + 1 * k.val = k.val; omega

/-- Window 2's block at point `t`, entry by entry, is the array as the region finds it at the global index. -/
theorem blk2_apply (c : Dev nD) (t : Fin cfg0.N) (p : Fin 1000) (k : Fin 1) :
    iblk m c 2 t (ix2 p k) = V m c main_v29 (ix2 (colOf t p) (k)) := by
  unfold iblk
  show V m c main_v29 (((cfg0.win 2).blk t).view.emb (ix2 p k)) = _
  refine congrArg (V m c main_v29) (funext fun a => Fin.ext ?_)
  obtain ⟨e00, e01, e10, e11, e20, e21, e30, e31, e40, e41⟩ := idx_facts t
  match a with
  | ⟨0, _⟩ => show win0_2.index t (0 : Fin 2) * 1000 + 1 * p.val = t.val % 100 * 1000 + p.val; omega
  | ⟨1, _⟩ => show win0_2.index t (1 : Fin 2) * 1 + 1 * k.val = k.val; omega

/-- Window 3's block at point `t`, entry by entry, is the array as the region finds it at the global index. -/
theorem blk3_apply (c : Dev nD) (t : Fin cfg0.N) (p : Fin 512) (k : Fin 8) :
    iblk m c 3 t (ix2 p k) = V m c main_v26 (ix2 (rowOf t p) (k)) := by
  unfold iblk
  show V m c main_v26 (((cfg0.win 3).blk t).view.emb (ix2 p k)) = _
  refine congrArg (V m c main_v26) (funext fun a => Fin.ext ?_)
  obtain ⟨e00, e01, e10, e11, e20, e21, e30, e31, e40, e41⟩ := idx_facts t
  match a with
  | ⟨0, _⟩ => show win0_3.index t (0 : Fin 2) * 512 + 1 * p.val = t.val / 100 * 512 + p.val; omega
  | ⟨1, _⟩ => show win0_3.index t (1 : Fin 2) * 8 + 1 * k.val = k.val; omega

end Cert.KernelIdeal.Fr

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibRowSoftmax.lean ====
/-
  A row-wise softmax on the vector unit, read at explicit coordinates of a `[B, n]` array.

  * the maximum over the lanes of row `p`, taken from the value the accumulator's word denotes, is the
    greatest of that value and the row's `n` entries;
  * the softmax as a kernel spells it with `keepdims` reductions — subtract the row's maximum (the
    maxima cast to a column and broadcast back along the lanes), exponentiate, divide by the row's sum of
    exponentials (cast and broadcast the same way) — holds at `(p, q)` the share
    `exp (s q - M) / ∑ k, exp (s k - M)` of row `p`, where `s` is the row and `M` its maximum.

  Statements about indices and extended reals only; nothing here mentions a program.
-/
import Idealize.ShloMosaic.PureOps.Ideal
import Idealize.ShloMosaic.PureOps.Ideal.Laws
import Idealize.ShloMosaic.Lib.ValueIdx
import Idealize.ShloMosaic.Lib.Pipeline.Value
import proofs.«117692_j34153579937938_2_alg».proof.Proof.LibRowLayout

noncomputable section

open scoped BigOperators

namespace Cert.RowSoftmax

open Idealize.ShloMosaic Idealize.ShloMosaic.ValueIdx Cert.RowLayout

/-- The greatest of `lo` and a row's entries. -/
def rowMax {n : Nat} (lo : EReal) (s : Fin n → EReal) : EReal := (Finset.univ : Finset (Fin n)).fold max lo s

/-- Entry `q`'s softmax share of its row: its exponential, shifted by the row's maximum, over the sum of
    the row's shifted exponentials. -/
def share {n : Nat} (lo : EReal) (s : Fin n → EReal) (q : Fin n) : EReal :=
  Ideal.div (Ideal.exp (s q - rowMax lo s)) (∑ k : Fin n, Ideal.exp (s k - rowMax lo s))

/-- The vector unit's maximum over the lanes is, in row `p`, the greatest of the accumulator's value and the
    row's `n` entries. -/
theorem laneMax_apply {B n : Nat} (v : FVec Ideal (⟨2, ![B, n]⟩ : Shape) .f32) (acc : BitVec 32)
    (h : Shape.Reduces (⟨2, ![B, n]⟩ : Shape) [(1 : Fin 2)] (⟨1, ![B]⟩ : Shape)) (hφ : FKind.Formats .f32)
    (hacc : acc = FKind.maximumf.neutral .f32 hφ) (p : Fin B) :
    multiReduction .maximumf [(1 : Fin 2)] (⟨1, ![B]⟩ : Shape) v acc h hφ hacc (ix1 p)
      = rowMax (Ideal.ofBits .f32 acc) (fun k : Fin n => v (ix2 p k)) := by
  refine (Ideal.multiReduction_maximumf_single v acc h hφ hacc (ix1 p)).trans ?_
  unfold rowMax
  refine Finset.fold_congr fun k _ => ?_
  exact congrArg v (funext fun a => Fin.ext (by match a with | ⟨0, _⟩ => rfl | ⟨1, _⟩ => rfl))

/-- THE ROW SOFTMAX with `keepdims` reductions: at `(p, q)` it is entry `q`'s share of row `p`. -/
theorem rowSoftmax_apply {B n : Nat} (S : FVec Ideal (⟨2, ![B, n]⟩ : Shape) .f32) (acc : BitVec 32)
    (hred : Shape.Reduces (⟨2, ![B, n]⟩ : Shape) [(1 : Fin 2)] (⟨1, ![B]⟩ : Shape))
    (hφM : FKind.Formats .f32) (haccM : acc = FKind.maximumf.neutral .f32 hφM)
    (hφA : FKind.Formats .f32) (haccA : (0x00000000#32 : BitVec 32) = FKind.add.neutral .f32 hφA)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf
        (exp (subf S (broadcastTo (⟨2, ![B, n]⟩ : Shape)
          (shapeCast (⟨2, ![B, 1]⟩ : Shape) (multiReduction .maximumf [(1 : Fin 2)] (⟨1, ![B]⟩ : Shape) S acc hred hφM haccM) hcast) hbc)))
        (broadcastTo (⟨2, ![B, n]⟩ : Shape)
          (shapeCast (⟨2, ![B, 1]⟩ : Shape)
            (multiReduction .add [(1 : Fin 2)] (⟨1, ![B]⟩ : Shape)
              (exp (subf S (broadcastTo (⟨2, ![B, n]⟩ : Shape)
                (shapeCast (⟨2, ![B, 1]⟩ : Shape) (multiReduction .maximumf [(1 : Fin 2)] (⟨1, ![B]⟩ : Shape) S acc hred hφM haccM) hcast) hbc)))
              0x00000000#32 hred hφA haccA) hcast) hbc) (ix2 p q)
      = share (Ideal.ofBits .f32 acc) (fun k : Fin n => S (ix2 p k)) q := by
  have hM : ∀ k : Fin n, broadcastTo (⟨2, ![B, n]⟩ : Shape)
        (shapeCast (⟨2, ![B, 1]⟩ : Shape) (multiReduction .maximumf [(1 : Fin 2)] (⟨1, ![B]⟩ : Shape) S acc hred hφM haccM) hcast) hbc (ix2 p k)
      = rowMax (Ideal.ofBits .f32 acc) (fun k : Fin n => S (ix2 p k)) := fun k =>
    (bcastCol_apply _ hbc p k).trans ((castCol_apply _ hcast p).trans (laneMax_apply S acc hred hφM haccM p))
  have hE : ∀ k : Fin n, (exp (subf S (broadcastTo (⟨2, ![B, n]⟩ : Shape)
        (shapeCast (⟨2, ![B, 1]⟩ : Shape) (multiReduction .maximumf [(1 : Fin 2)] (⟨1, ![B]⟩ : Shape) S acc hred hφM haccM) hcast) hbc))
        : FVec Ideal (⟨2, ![B, n]⟩ : Shape) .f32) (ix2 p k)
      = Ideal.exp (S (ix2 p k) - rowMax (Ideal.ofBits .f32 acc) (fun k : Fin n => S (ix2 p k))) := fun k =>
    congrArg (fun z => Ideal.exp (S (ix2 p k) - z)) (hM k)
  refine (rowShare_apply _ hred hφA haccA hcast hbc p q).trans ?_
  unfold share
  rw [hE q]
  exact congrArg _ (Finset.sum_congr rfl fun k _ => hE k)

end Cert.RowSoftmax

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.Consts.lean ====
/-
  The float constants the two programs spell, as the extended reals their bit patterns denote: 0, 1, -1, 2, -1/2
  and the two infinities.
-/
import Idealize.ShloMosaic.PureOps.Ideal

noncomputable section

namespace Cert.Consts

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-1/2 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

end Cert.Consts

end
-- ==== Proof.PayReal.lean ====
/-
  The body's arithmetic read at an index, on the extended reals. Each payload of the kernel's skeleton is read entry by
  entry: the tile of logits `c0 + c1 * <x, d> + c2 * |d|^2` (a matrix product with the transposed dataset tile, three
  coefficient columns broadcast along the lanes, the norms' column transposed to a row and broadcast down the rows), the
  new running maximum, the rescaling factor, the shifted exponentials, the new normaliser (a lane sum), the new
  accumulator (a second matrix product), and the final normalised, scaled block.
-/
import proofs.«117692_j34153579937938_2_alg».proof.Proof.Gen.KernelIdeal.Skeleton
import proofs.«117692_j34153579937938_2_alg».proof.Proof.LibRowLayout
import proofs.«117692_j34153579937938_2_alg».proof.Proof.LibRowSoftmax
import proofs.«117692_j34153579937938_2_alg».proof.Proof.LibPlainMatmul
import proofs.«117692_j34153579937938_2_alg».proof.Proof.Consts
import Idealize.ShloMosaic.PureOps.Ideal.Laws
import Idealize.ShloMosaic.Lib.ValueIdx
import Idealize.ShloMosaic.Lib.Pipeline.Value

noncomputable section

namespace Cert.KernelIdeal.PayReal

open Cert.KernelIdeal Cert.KernelIdeal.Gen
open Idealize.ShloMosaic Idealize.ShloMosaic.ValueIdx Cert.RowLayout Cert.RowSoftmax Cert.PlainMatmul
open scoped BigOperators

variable (v3 : Vec Ideal S1000x512 .f32) (v4 : Vec Ideal S512x512 .f32) (v7 : Vec Ideal S1000x1 .f32) (v10 : Vec Ideal S512x8 .f32)

/-- Column `j` of the eight coefficient columns, cut out as a [512, 1] column, holds row `p`'s coefficient `j`. -/
theorem coefCol_apply (jn : Nat) (hj : jn < 8) (h : S512x8.Slices ![0, jn] S512x1) (p : Fin 512) :
    extractStridedSlice S512x1 ![0, jn] v10 h (ix2 p (0 : Fin 1)) = v10 (ix2 p (⟨jn, hj⟩ : Fin 8)) :=
  extractStridedSlice_apply _ v10 h (ix2 p (0 : Fin 1)) (ix2 p (⟨jn, hj⟩ : Fin 8)) (fun a => match a with
    | ⟨0, _⟩ => by show p.val = 0 + p.val; omega
    | ⟨1, _⟩ => by show jn = jn + 0; omega)

/-- The transposed dataset tile at (k, n) is the tile at (n, k). -/
theorem dataT_apply (h : S1000x512.Transposes [1, 0] S512x1000) (k : Fin 512) (n : Fin 1000) :
    transpose S512x1000 [1, 0] v3 h (ix2 k n) = v3 (ix2 n k) :=
  transpose_apply _ v3 h (ix2 k n) (ix2 n k) (fun b => match b with
    | ⟨0, _⟩ => rfl
    | ⟨1, _⟩ => rfl)

/-- The norms' column transposed to a row: entry (0, n) is the column's entry n. -/
theorem normRow_apply (w : Vec Ideal S1000x1 .f32) (h : S1000x1.Transposes [1, 0] S1x1000) (n : Fin 1000) :
    transpose S1x1000 [1, 0] w h (ix2 (0 : Fin 1) n) = w (ix2 n (0 : Fin 1)) :=
  transpose_apply _ w h (ix2 (0 : Fin 1) n) (ix2 n (0 : Fin 1)) (fun b => match b with
    | ⟨0, _⟩ => rfl
    | ⟨1, _⟩ => rfl)

/-- A row broadcast down 512 rows holds the row's entry n in lane n of every row. -/
theorem bcastRow_apply (y : FVec Ideal S1x1000 .f32) (h : S1x1000.Broadcasts S512x1000) (p : Fin 512) (n : Fin 1000) :
    broadcastTo S512x1000 y h (ix2 p n) = y (ix2 (0 : Fin 1) n) :=
  broadcastTo_apply y h (ix2 p n) (ix2 (0 : Fin 1) n) (fun a => match a with
    | ⟨0, _⟩ => by
        show 0 = if (1 : Nat) = 1 then 0 else p.val
        rw [if_pos rfl]
    | ⟨1, _⟩ => by
        show n.val = if (1000 : Nat) = 1 then 0 else n.val
        rw [if_neg (by decide)])

/-- THE TILE OF LOGITS at (p, n): `(c0 p + c1 p * ∑ k, x p k * d n k) + c2 p * norm n`. -/
theorem pay8_apply (p : Fin 512) (n : Fin 1000) :
    k0_pay8 (F := Ideal) v3 v4 v7 v10 (ix2 p n)
      = (v10 (ix2 p (0 : Fin 8)) + v10 (ix2 p (1 : Fin 8)) * ∑ k : Fin 512, v4 (ix2 p k) * v3 (ix2 n k))
        + v10 (ix2 p (2 : Fin 8)) * v7 (ix2 n (0 : Fin 1)) := by
  unfold k0_pay8
  (try dsimp only)
  rw [addf_apply, addf_apply, mulf_apply, mulf_apply]
  rw [bcastCol_apply, bcastCol_apply, bcastCol_apply, bcastRow_apply, normRow_apply]
  rw [shapeCast_self, shapeCast_self]
  rw [coefCol_apply v10 0 (by decide), coefCol_apply v10 1 (by decide), coefCol_apply v10 2 (by decide)]
  rw [matmul_zero_apply dot_S512x512_S512x1000_S512x1000_1_0_0_1_n_n rfl rfl (fun _ _ => rfl) (fun _ _ => rfl) (fun _ _ => rfl) (fun _ _ => rfl)]
  refine congrArg₂ (· + ·) (congrArg₂ (· + ·) rfl (congrArg₂ (· * ·) rfl (Finset.sum_congr rfl fun k _ => ?_))) rfl
  exact congrArg _ (dataT_apply v3 _ k n)

variable (v23 v27 v33 : Vec Ideal S512x1 .f32) (v43 : Vec Ideal S512x512 .f32)

/-- The stores of a column or a block pass through a cast of a shape to itself: the stored value is the value. -/
theorem pay1_eq (v : FVec Ideal S512x1 .f32) : k0_pay1 (F := Ideal) v = v := by
  unfold k0_pay1; (try dsimp only); rw [shapeCast_self]
theorem pay3_eq (v : FVec Ideal S512x1 .f32) : k0_pay3 (F := Ideal) v = v := by
  unfold k0_pay3; (try dsimp only); rw [shapeCast_self]

/-- THE NEW RUNNING MAXIMUM of row p: the greater of the old one and the tile's logits of that row (from minus infinity). -/
theorem pay9_apply (p : Fin 512) :
    k0_pay9 (F := Ideal) v3 v4 v7 v10 v23 (ix2 p (0 : Fin 1))
      = max (v23 (ix2 p (0 : Fin 1)))
          (rowMax (Ideal.ofBits .f32 0xFF800000#32) (fun n : Fin 1000 => k0_pay8 (F := Ideal) v3 v4 v7 v10 (ix2 p n))) := by
  unfold k0_pay9
  (try dsimp only)
  rw [maximumf_apply, castCol_apply]
  exact congrArg _ (laneMax_apply (k0_pay8 (F := Ideal) v3 v4 v7 v10) 0xFF800000#32 reduces_S512x1000_S512 _ _ p)

/-- THE RESCALING FACTOR of row p: the exponential of the old shift minus the new one. -/
theorem pay10_apply (p : Fin 512) :
    k0_pay10 (F := Ideal) v3 v4 v7 v10 v23 v27 (ix2 p (0 : Fin 1))
      = Ideal.exp (v27 (ix2 p (0 : Fin 1)) - k0_pay9 (F := Ideal) v3 v4 v7 v10 v23 (ix2 p (0 : Fin 1))) := by
  unfold k0_pay10; rfl

/-- THE SHIFTED EXPONENTIALS at (p, n). -/
theorem pay11_apply (p : Fin 512) (n : Fin 1000) :
    k0_pay11 (F := Ideal) v3 v4 v7 v10 v23 (ix2 p n)
      = Ideal.exp (k0_pay8 (F := Ideal) v3 v4 v7 v10 (ix2 p n) - k0_pay9 (F := Ideal) v3 v4 v7 v10 v23 (ix2 p (0 : Fin 1))) := by
  unfold k0_pay11
  show Ideal.exp (k0_pay8 (F := Ideal) v3 v4 v7 v10 (ix2 p n) - broadcastTo S512x1000 (k0_pay9 (F := Ideal) v3 v4 v7 v10 v23) broadcasts_S512x1_S512x1000 (ix2 p n)) = _
  rw [bcastCol_apply]

/-- THE NEW NORMALISER of row p: the old one rescaled, plus the lane sum of the shifted exponentials. -/
theorem pay12_apply (p : Fin 512) :
    k0_pay12 (F := Ideal) v3 v4 v7 v10 v23 v27 v33 (ix2 p (0 : Fin 1))
      = k0_pay10 (F := Ideal) v3 v4 v7 v10 v23 v27 (ix2 p (0 : Fin 1)) * v33 (ix2 p (0 : Fin 1))
        + ∑ n : Fin 1000, k0_pay11 (F := Ideal) v3 v4 v7 v10 v23 (ix2 p n) := by
  unfold k0_pay12
  (try dsimp only)
  rw [addf_apply, mulf_apply, castCol_apply]
  exact congrArg _ (laneSum_apply (k0_pay11 (F := Ideal) v3 v4 v7 v10 v23) reduces_S512x1000_S512 _ _ p)

/-- THE NEW ACCUMULATOR at (p, k): the old one rescaled by row p's factor, plus the product of the shifted
    exponentials with the dataset tile (a change of float format is the identity). -/
theorem pay2_apply (v29 : FVec Ideal S512x1 .f32) (v32 : FVec Ideal S512x1000 .f32) (p : Fin 512) (k : Fin 512) :
    k0_pay2 (F := Ideal) v3 v29 v32 v43 (ix2 p k)
      = v29 (ix2 p (0 : Fin 1)) * v43 (ix2 p k) + ∑ n : Fin 1000, v32 (ix2 p n) * v3 (ix2 n k) := by
  unfold k0_pay2
  (try dsimp only)
  rw [shapeCast_self, addf_apply, mulf_apply, bcastCol_apply,
    matmul_zero_apply dot_S512x1000_S1000x512_S512x512_1_0_0_1_n_n rfl rfl (fun _ _ => rfl) (fun _ _ => rfl) (fun _ _ => rfl) (fun _ _ => rfl)]
  rfl

/-- THE OUTPUT BLOCK at (p, k): `ib p * x p k + (acc p k / l p) * dc p`, the two factors columns 4 and 3 of the
    coefficient block. -/
theorem pay4_apply (v57 : Vec Ideal S512x8 .f32) (v61 : Vec Ideal S512x512 .f32) (v62 : Vec Ideal S512x1 .f32)
    (v67 : Vec Ideal S512x512 .f32) (p : Fin 512) (k : Fin 512) :
    k0_pay4 (F := Ideal) v57 v61 v62 v67 (ix2 p k)
      = v57 (ix2 p (4 : Fin 8)) * v67 (ix2 p k)
        + Ideal.div (v61 (ix2 p k)) (v62 (ix2 p (0 : Fin 1))) * v57 (ix2 p (3 : Fin 8)) := by
  unfold k0_pay4
  (try dsimp only)
  rw [addf_apply, mulf_apply, mulf_apply, divf_apply, bcastCol_apply, bcastCol_apply, bcastCol_apply, shapeCast_self,
    coefCol_apply v57 3 (by decide), coefCol_apply v57 4 (by decide)]
  rfl

/-- The reset values: minus infinity for the running maximum, zero for the normaliser and the accumulator. -/
theorem pay5_apply (i : S512x1.Idx) : k0_pay5 (F := Ideal) i = ⊥ := by
  unfold k0_pay5; (try dsimp only); rw [shapeCast_self]
  exact Cert.Consts.ofBits_neg_inf
theorem pay6_apply (i : S512x1.Idx) : k0_pay6 (F := Ideal) i = 0 := by
  unfold k0_pay6; (try dsimp only); rw [shapeCast_self]
  exact Cert.Consts.ofBits_zero.trans EReal.coe_zero
theorem pay7_apply (i : S512x512.Idx) : k0_pay7 (F := Ideal) i = 0 := by
  unfold k0_pay7; (try dsimp only); rw [shapeCast_self]
  exact Cert.Consts.ofBits_zero.trans EReal.coe_zero

end Cert.KernelIdeal.PayReal

end
-- ==== Proof.LibOnlineSoftmax.lean ====
/-
  A general lemma on the extended reals: the STREAMING (online, "flash") form of a softmax-weighted sum.

  A row of logits arrives tile by tile. A kernel keeps three running quantities per row — a shift `m` (started at
  `-∞`), a normaliser `l` (started at `0`) and an accumulator `a` (started at `0`) — and at each tile, having
  chosen a new shift `m'`, rescales the old ones by `α = exp (m - m')`:
      l' = α · l + ∑ i, exp (L i - m'),        a' = α · a + ∑ i, exp (L i - m') · v i.
  Whatever the shifts are, as long as each new one is a real number, the state satisfies
      l · exp m = ∑ (all logits seen) exp L,    a · exp m = ∑ (all logits seen) exp L · v,
  so that at the end `a / l` is the softmax-weighted mean `(∑ exp L · v) / (∑ exp L)`: the shift cancels. The
  first tile is the one place where the extended reals matter: the old shift is `-∞`, `exp (-∞ - m') = 0`,
  and `0 · 0 = 0`.

  Everything is stated with the idealized float operations `Ideal.exp` and `Ideal.div` and Mathlib's `+`, `*`,
  `-` on `EReal`, for logits and values that are real numbers.
-/
import Idealize.ShloMosaic.PureOps.Ideal

noncomputable section

namespace Cert.Lib.OnlineSoftmax

open Idealize.ShloMosaic
open scoped BigOperators

/-- A finite sum of real numbers, taken in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The state of a streaming softmax after some tiles: the shift, the normaliser and the accumulator are real
    numbers, and scaled back by `exp` of the shift they are the plain sums `S0 = ∑ exp L` and
    `S1 = ∑ exp L · v` over the logits seen so far. -/
def Inv (S0 S1 : ℝ) (m l a : EReal) : Prop :=
  ∃ μ lam α : ℝ, m = (μ : EReal) ∧ l = (lam : EReal) ∧ a = (α : EReal)
    ∧ lam * Real.exp μ = S0 ∧ α * Real.exp μ = S1

variable {ι : Type*} [Fintype ι]

/-- The new normaliser after a tile with logits `L`, from the old shift `m`, the new one `m'`, the old `l`. -/
def stepL (m m' l : EReal) (L : ι → ℝ) : EReal :=
  Ideal.exp (m - m') * l + ∑ i, Ideal.exp ((L i : EReal) - m')

/-- The new accumulator after a tile with logits `L` and values `v`. -/
def stepA (m m' a : EReal) (L v : ι → ℝ) : EReal :=
  Ideal.exp (m - m') * a + ∑ i, Ideal.exp ((L i : EReal) - m') * (v i : EReal)

private theorem tile_sum (L : ι → ℝ) (μ' : ℝ) :
    (∑ i, Real.exp (L i - μ')) * Real.exp μ' = ∑ i, Real.exp (L i) := by
  rw [Finset.sum_mul]
  refine Finset.sum_congr rfl fun i _ => ?_
  rw [← Real.exp_add, sub_add_cancel]

private theorem tile_sum_v (L v : ι → ℝ) (μ' : ℝ) :
    (∑ i, Real.exp (L i - μ') * v i) * Real.exp μ' = ∑ i, Real.exp (L i) * v i := by
  rw [Finset.sum_mul]
  refine Finset.sum_congr rfl fun i _ => ?_
  rw [mul_right_comm, ← Real.exp_add, sub_add_cancel]

/-- THE FIRST TILE. From the initial state (shift `-∞`, normaliser `0`, accumulator `0`) and a real new shift,
    the state after the tile satisfies the invariant for that tile's sums. -/
theorem first (L v : ι → ℝ) (μ' : ℝ) :
    Inv (∑ i, Real.exp (L i)) (∑ i, Real.exp (L i) * v i) (μ' : EReal)
      (stepL ⊥ (μ' : EReal) 0 L) (stepA ⊥ (μ' : EReal) 0 L v) := by
  refine ⟨μ', ∑ i, Real.exp (L i - μ'), ∑ i, Real.exp (L i - μ') * v i, rfl, ?_, ?_, tile_sum L μ', tile_sum_v L v μ'⟩
  · unfold stepL
    rw [mul_zero, zero_add, ← coe_sum]
    refine Finset.sum_congr rfl fun i _ => ?_
    rw [← EReal.coe_sub, Ideal.exp_coe]
  · unfold stepA
    rw [mul_zero, zero_add, ← coe_sum]
    refine Finset.sum_congr rfl fun i _ => ?_
    rw [← EReal.coe_sub, Ideal.exp_coe, ← EReal.coe_mul]

/-- A LATER TILE. From a state satisfying the invariant for `S0`, `S1` and a real new shift, the state after the
    tile satisfies it for the sums enlarged by the tile's. -/
theorem next {S0 S1 : ℝ} {m l a : EReal} (h : Inv S0 S1 m l a) (L v : ι → ℝ) (μ' : ℝ) :
    Inv (S0 + ∑ i, Real.exp (L i)) (S1 + ∑ i, Real.exp (L i) * v i) (μ' : EReal)
      (stepL m (μ' : EReal) l L) (stepA m (μ' : EReal) a L v) := by
  obtain ⟨μ, lam, α, rfl, rfl, rfl, h0, h1⟩ := h
  have hexp : Real.exp (μ - μ') * Real.exp μ' = Real.exp μ := by rw [← Real.exp_add, sub_add_cancel]
  refine ⟨μ', Real.exp (μ - μ') * lam + ∑ i, Real.exp (L i - μ'),
    Real.exp (μ - μ') * α + ∑ i, Real.exp (L i - μ') * v i, rfl, ?_, ?_, ?_, ?_⟩
  · unfold stepL
    rw [← EReal.coe_sub, Ideal.exp_coe, ← EReal.coe_mul, EReal.coe_add, ← coe_sum]
    refine congrArg _ (Finset.sum_congr rfl fun i _ => ?_)
    rw [← EReal.coe_sub, Ideal.exp_coe]
  · unfold stepA
    rw [← EReal.coe_sub, Ideal.exp_coe, ← EReal.coe_mul, EReal.coe_add, ← coe_sum]
    refine congrArg _ (Finset.sum_congr rfl fun i _ => ?_)
    rw [← EReal.coe_sub, Ideal.exp_coe, ← EReal.coe_mul]
  · rw [add_mul, tile_sum, ← h0, mul_right_comm, hexp, mul_comm]
  · rw [add_mul, tile_sum_v, ← h1, mul_right_comm, hexp, mul_comm]

/-- THE END. With a positive total `S0` (any nonempty sum of exponentials), the quotient of the accumulator by the
    normaliser is the real quotient `S1 / S0`: the shift has cancelled. -/
theorem quotient {S0 S1 : ℝ} {m l a : EReal} (h : Inv S0 S1 m l a) (hS : 0 < S0) :
    Ideal.div a l = ((S1 / S0 : ℝ) : EReal) := by
  obtain ⟨μ, lam, α, rfl, rfl, rfl, h0, h1⟩ := h
  have hμ : 0 < Real.exp μ := Real.exp_pos μ
  have hlam : lam ≠ 0 := by
    rintro rfl
    rw [zero_mul] at h0
    exact absurd h0.symm (ne_of_gt hS)
  rw [Ideal.div_coe hlam, ← EReal.coe_mul]
  congr 1
  rw [← h0, ← h1]
  field_simp

/-- The maximum of `-∞` or a real with a real is a real: what a running-maximum shift needs to stay real. -/
theorem max_coe_real (m : EReal) (hm : m = ⊥ ∨ ∃ μ : ℝ, m = (μ : EReal)) (y : ℝ) :
    ∃ μ' : ℝ, max m (y : EReal) = (μ' : EReal) := by
  rcases hm with rfl | ⟨μ, rfl⟩
  · exact ⟨y, max_eq_right bot_le⟩
  · exact ⟨max μ y, (EReal.coe_strictMono.monotone.map_max).symm⟩

end Cert.Lib.OnlineSoftmax

end
-- ==== Proof.TileReal.lean ====
/-
  One tile of the streaming softmax, on real data. When the four blocks a grid point loads hold real numbers —
  the batch rows `xr`, the dataset tile `dr`, its squared norms `nr`, the coefficient columns `cr` — the tile's
  logits are the real numbers `(c0 + c1 * <x, d>) + c2 * |d|^2`; the new running maximum is a real number whenever the
  old one is minus infinity or a real; and the new normaliser and accumulator are one step of the streaming softmax
  (LibOnlineSoftmax) from the old ones. So the invariant "normaliser and accumulator, scaled by the exponential of the
  shift, are the plain sums over the logits seen so far" passes from one tile to the next, and starts at a first tile.
-/
import proofs.«117692_j34153579937938_2_alg».proof.Proof.PayReal
import proofs.«117692_j34153579937938_2_alg».proof.Proof.LibOnlineSoftmax

noncomputable section

namespace Cert.KernelIdeal.Tile

open Cert.KernelIdeal Cert.KernelIdeal.Gen Cert.KernelIdeal.PayReal
open Idealize.ShloMosaic Idealize.ShloMosaic.ValueIdx Cert.RowSoftmax Cert.Lib.OnlineSoftmax
open scoped BigOperators

/-- The blocks of a grid point hold real numbers. -/
structure Real (X0 : Vec Ideal S512x512 .f32) (X1 : Vec Ideal S1000x512 .f32) (X2 : Vec Ideal S1000x1 .f32)
    (X3 : Vec Ideal S512x8 .f32) (xr : Fin 512 → Fin 512 → ℝ) (dr : Fin 1000 → Fin 512 → ℝ) (nr : Fin 1000 → ℝ)
    (cr : Fin 512 → Fin 3 → ℝ) : Prop where
  h0 : ∀ p k, X0 (ix2 p k) = ((xr p k : ℝ) : EReal)
  h1 : ∀ n k, X1 (ix2 n k) = ((dr n k : ℝ) : EReal)
  h2 : ∀ n, X2 (ix2 n (0 : Fin 1)) = ((nr n : ℝ) : EReal)
  h30 : ∀ p, X3 (ix2 p (0 : Fin 8)) = ((cr p 0 : ℝ) : EReal)
  h31 : ∀ p, X3 (ix2 p (1 : Fin 8)) = ((cr p 1 : ℝ) : EReal)
  h32 : ∀ p, X3 (ix2 p (2 : Fin 8)) = ((cr p 2 : ℝ) : EReal)

variable {X0 : Vec Ideal S512x512 .f32} {X1 : Vec Ideal S1000x512 .f32} {X2 : Vec Ideal S1000x1 .f32}
  {X3 : Vec Ideal S512x8 .f32} {xr : Fin 512 → Fin 512 → ℝ} {dr : Fin 1000 → Fin 512 → ℝ} {nr : Fin 1000 → ℝ}
  {cr : Fin 512 → Fin 3 → ℝ}

/-- The tile's logit of batch row `p` and dataset row `n`, a real number. -/
def logit (xr : Fin 512 → Fin 512 → ℝ) (dr : Fin 1000 → Fin 512 → ℝ) (nr : Fin 1000 → ℝ) (cr : Fin 512 → Fin 3 → ℝ)
    (p : Fin 512) (n : Fin 1000) : ℝ :=
  (cr p 0 + cr p 1 * ∑ k, xr p k * dr n k) + cr p 2 * nr n

theorem logit_eq (h : Real X0 X1 X2 X3 xr dr nr cr) (p : Fin 512) (n : Fin 1000) :
    k0_pay8 (F := Ideal) X1 X0 X2 X3 (ix2 p n) = ((logit xr dr nr cr p n : ℝ) : EReal) := by
  rw [pay8_apply, h.h30, h.h31, h.h32, h.h2]
  unfold logit
  rw [EReal.coe_add, EReal.coe_add, EReal.coe_mul, EReal.coe_mul, ← coe_sum]
  refine congrArg₂ (· + ·) (congrArg₂ (· + ·) rfl (congrArg₂ (· * ·) rfl (Finset.sum_congr rfl fun k _ => ?_))) rfl
  rw [h.h0, h.h1, EReal.coe_mul]

/-- A maximum from minus infinity over finitely many reals, at least one of them, is a real. -/
theorem fold_max_real {ι : Type} [DecidableEq ι] (s : Finset ι) (f : ι → ℝ) :
    (s = ∅ ∧ s.fold max (⊥ : EReal) (fun i => (f i : EReal)) = ⊥) ∨ ∃ μ : ℝ, s.fold max (⊥ : EReal) (fun i => (f i : EReal)) = (μ : EReal) := by
  induction s using Finset.induction_on with
  | empty => exact Or.inl ⟨rfl, rfl⟩
  | insert a s ha ih =>
    right
    rw [Finset.fold_insert ha]
    rcases ih with ⟨-, h⟩ | ⟨μ, h⟩
    · rw [h]; exact ⟨f a, max_eq_left bot_le⟩
    · rw [h]; exact ⟨max (f a) μ, (EReal.coe_strictMono.monotone.map_max).symm⟩

theorem rowMax_real (f : Fin 1000 → ℝ) : ∃ μ : ℝ, rowMax (⊥ : EReal) (fun n => (f n : EReal)) = (μ : EReal) := by
  unfold rowMax
  rcases fold_max_real (Finset.univ : Finset (Fin 1000)) f with ⟨he, -⟩ | h
  · exact absurd he (Finset.univ_nonempty (α := Fin 1000)).ne_empty
  · exact h

/-- The new running maximum of row `p` is a real number when the old one is minus infinity or a real. -/
theorem newmax_real (h : Real X0 X1 X2 X3 xr dr nr cr) (M : Vec Ideal S512x1 .f32) (p : Fin 512)
    (hM : M (ix2 p (0 : Fin 1)) = ⊥ ∨ ∃ μ : ℝ, M (ix2 p (0 : Fin 1)) = (μ : EReal)) :
    ∃ μ' : ℝ, k0_pay9 (F := Ideal) X1 X0 X2 X3 M (ix2 p (0 : Fin 1)) = (μ' : EReal) := by
  rw [pay9_apply, Cert.Consts.ofBits_neg_inf]
  simp only [logit_eq h]
  obtain ⟨μt, ht⟩ := rowMax_real (fun n => logit xr dr nr cr p n)
  rw [ht]
  exact max_coe_real _ hM μt

/-- The new normaliser of row `p` is a step of the streaming softmax. -/
theorem newl_eq (h : Real X0 X1 X2 X3 xr dr nr cr) (M Lm : Vec Ideal S512x1 .f32) (p : Fin 512) :
    k0_pay12 (F := Ideal) X1 X0 X2 X3 M M Lm (ix2 p (0 : Fin 1))
      = stepL (M (ix2 p (0 : Fin 1))) (k0_pay9 (F := Ideal) X1 X0 X2 X3 M (ix2 p (0 : Fin 1))) (Lm (ix2 p (0 : Fin 1)))
          (logit xr dr nr cr p) := by
  rw [pay12_apply, pay10_apply]
  unfold stepL
  refine congrArg₂ (· + ·) rfl (Finset.sum_congr rfl fun n _ => ?_)
  rw [pay11_apply, logit_eq h]

/-- The new accumulator at (p, k) is a step of the streaming softmax with the dataset tile's column `k` as values. -/
theorem newa_eq (h : Real X0 X1 X2 X3 xr dr nr cr) (M : Vec Ideal S512x1 .f32) (A : Vec Ideal S512x512 .f32)
    (p : Fin 512) (k : Fin 512) :
    k0_pay2 (F := Ideal) X1 (k0_pay10 (F := Ideal) X1 X0 X2 X3 M M) (k0_pay11 (F := Ideal) X1 X0 X2 X3 M) A (ix2 p k)
      = stepA (M (ix2 p (0 : Fin 1))) (k0_pay9 (F := Ideal) X1 X0 X2 X3 M (ix2 p (0 : Fin 1))) (A (ix2 p k))
          (logit xr dr nr cr p) (fun n => dr n k) := by
  rw [pay2_apply, pay10_apply]
  unfold stepA
  refine congrArg₂ (· + ·) rfl (Finset.sum_congr rfl fun n _ => ?_)
  rw [pay11_apply, logit_eq h, h.h1]

/-- THE FIRST TILE of a row block: from the reset values (minus infinity, zero, zero) the new shift, normaliser and
    accumulator of row `p` satisfy the invariant for the tile's own sums. -/
theorem tile_first (h : Real X0 X1 X2 X3 xr dr nr cr) (M Lm : Vec Ideal S512x1 .f32) (A : Vec Ideal S512x512 .f32)
    (hM : ∀ i, M i = ⊥) (hL : ∀ i, Lm i = 0) (hA : ∀ i, A i = 0) (p : Fin 512) (k : Fin 512) :
    Inv (∑ n, Real.exp (logit xr dr nr cr p n)) (∑ n, Real.exp (logit xr dr nr cr p n) * dr n k)
      (k0_pay9 (F := Ideal) X1 X0 X2 X3 M (ix2 p (0 : Fin 1)))
      (k0_pay12 (F := Ideal) X1 X0 X2 X3 M M Lm (ix2 p (0 : Fin 1)))
      (k0_pay2 (F := Ideal) X1 (k0_pay10 (F := Ideal) X1 X0 X2 X3 M M) (k0_pay11 (F := Ideal) X1 X0 X2 X3 M) A (ix2 p k)) := by
  obtain ⟨μ', hμ⟩ := newmax_real h M p (Or.inl (hM _))
  rw [newl_eq h, newa_eq h, hμ, hM, hL, hA]
  exact first (logit xr dr nr cr p) (fun n => dr n k) μ'

/-- A LATER TILE: the invariant for the sums so far passes to the sums enlarged by this tile's. -/
theorem tile_next (h : Real X0 X1 X2 X3 xr dr nr cr) (M Lm : Vec Ideal S512x1 .f32) (A : Vec Ideal S512x512 .f32)
    (p : Fin 512) (k : Fin 512) {S0 S1 : ℝ}
    (hI : Inv S0 S1 (M (ix2 p (0 : Fin 1))) (Lm (ix2 p (0 : Fin 1))) (A (ix2 p k))) :
    Inv (S0 + ∑ n, Real.exp (logit xr dr nr cr p n)) (S1 + ∑ n, Real.exp (logit xr dr nr cr p n) * dr n k)
      (k0_pay9 (F := Ideal) X1 X0 X2 X3 M (ix2 p (0 : Fin 1)))
      (k0_pay12 (F := Ideal) X1 X0 X2 X3 M M Lm (ix2 p (0 : Fin 1)))
      (k0_pay2 (F := Ideal) X1 (k0_pay10 (F := Ideal) X1 X0 X2 X3 M M) (k0_pay11 (F := Ideal) X1 X0 X2 X3 M) A (ix2 p k)) := by
  obtain ⟨μ', hμ⟩ := newmax_real h M p (Or.inr (by obtain ⟨μ, _, _, hm, _⟩ := hI; exact ⟨μ, hm⟩))
  rw [newl_eq h, newa_eq h, hμ]
  exact next hI (logit xr dr nr cr p) (fun n => dr n k) μ'

/-- THE OUTPUT at (p, k) from a state satisfying the invariant for the full sums: `ib * x + (S1 / S0) * dc`. -/
theorem tile_out (C : Vec Ideal S512x8 .f32) (A : Vec Ideal S512x512 .f32) (Lm : Vec Ideal S512x1 .f32)
    (X : Vec Ideal S512x512 .f32) (p : Fin 512) (k : Fin 512) {S0 S1 : ℝ} {mm : EReal} (ib dcr xv : ℝ)
    (h3 : C (ix2 p (3 : Fin 8)) = ((dcr : ℝ) : EReal)) (h4 : C (ix2 p (4 : Fin 8)) = ((ib : ℝ) : EReal))
    (hx : X (ix2 p k) = ((xv : ℝ) : EReal))
    (hI : Inv S0 S1 mm (Lm (ix2 p (0 : Fin 1))) (A (ix2 p k))) (hS : 0 < S0) :
    k0_pay4 (F := Ideal) C A Lm X (ix2 p k) = ((ib * xv + (S1 / S0) * dcr : ℝ) : EReal) := by
  rw [pay4_apply, h3, h4, hx, quotient hI hS, EReal.coe_add, EReal.coe_mul, EReal.coe_mul]

end Cert.KernelIdeal.Tile

end
-- ==== Proof.Spec.lean ====
/-
  The function both programs compute, on real numbers.

  For a batch row `r` with time `t r` (and `b = 1 - t r`, assumed nonzero), the logit of dataset row `n` is
      L r n = -1/(2 b²) · ‖x r - t r · d n‖²,
  spelt by the kernel as `c0 + c1 · ⟨x r, d n⟩ + c2 · ‖d n‖²` with three per-row coefficients and by the reference as
  the product of `-1/(2 b b)` with the expanded square. The result is
      out r k = (-1/b) · x r k + (∑ n, softmax (L r) n · d n k) · (1 + t r / b),
  where the softmax-weighted sum is written without any shift, `(∑ exp L · d) / (∑ exp L)`: the kernel's running
  shift and the reference's row maximum both cancel. This module defines `out` in the kernel's association and proves
  that the reference's arrangement is the same real number.
-/
import Mathlib.Analysis.SpecialFunctions.Exp
import Mathlib.Tactic

noncomputable section

namespace Cert.Spec

open scoped BigOperators

variable {ρ ν κ : Type} [Fintype ρ] [Fintype ν] [Fintype κ] [Nonempty ν]
variable (x : ρ → κ → ℝ) (tt : ρ → ℝ) (d : ν → κ → ℝ)

/-- `b = 1 - t`. -/
def b (r : ρ) : ℝ := 1 - tt r
/-- `1 / b²`. -/
def ib2 (r : ρ) : ℝ := 1 / (b tt r * b tt r)
/-- The squared norm of batch row `r`. -/
def t1 (r : ρ) : ℝ := ∑ k, x r k * x r k
/-- The squared norm of dataset row `n`. -/
def nrm (n : ν) : ℝ := ∑ k, d n k * d n k
/-- The inner product of batch row `r` and dataset row `n`. -/
def dot (r : ρ) (n : ν) : ℝ := ∑ k, x r k * d n k
def c0 (r : ρ) : ℝ := ((-1/2) * ib2 tt r) * t1 x r
def c1 (r : ρ) : ℝ := ib2 tt r * tt r
def c2 (r : ρ) : ℝ := ((-1/2) * ib2 tt r) * (tt r * tt r)
/-- The factor on the weighted dataset row, `1 + t / b`. -/
def dc (r : ρ) : ℝ := 1 + tt r / b tt r
/-- The factor on the input row, `-1 / b`. -/
def ibn (r : ρ) : ℝ := (-1) / b tt r
/-- The logit, in the kernel's association. -/
def logit (r : ρ) (n : ν) : ℝ := (c0 x tt r + c1 tt r * dot x d r n) + c2 tt r * nrm d n
def S0 (r : ρ) : ℝ := ∑ n, Real.exp (logit x tt d r n)
def S1 (r : ρ) (k : κ) : ℝ := ∑ n, Real.exp (logit x tt d r n) * d n k
/-- The result. -/
def out (r : ρ) (k : κ) : ℝ := ibn tt r * x r k + (S1 x tt d r k / S0 x tt d r) * dc tt r

theorem S0_pos (r : ρ) : 0 < S0 x tt d r :=
  Finset.sum_pos (fun n _ => Real.exp_pos _) Finset.univ_nonempty

/-- The reference's logit: `(-1 / ((2 b) b)) · ((‖x‖² - (2 t) ⟨x, d⟩) + (t t) ‖d‖²)`. -/
def logitR (r : ρ) (n : ν) : ℝ :=
  ((-1) / ((2 * b tt r) * b tt r)) * ((t1 x r - (2 * tt r) * dot x d r n) + (tt r * tt r) * nrm d n)

theorem logitR_eq (r : ρ) (n : ν) (hb : b tt r ≠ 0) : logitR x tt d r n = logit x tt d r n := by
  unfold logitR logit c0 c1 c2 ib2
  field_simp
  ring

/-- The reference's factor `1 - (t · (-1)) / b` is `1 + t / b`. -/
theorem dcR_eq (r : ρ) : 1 - (tt r * (-1)) / b tt r = dc tt r := by
  unfold dc; ring

/-- The reference's result: the softmax shifted by any real `M` (its row maximum), normalised entry by entry, each
    probability scaled by the factor before the product with the dataset. It is `out`. -/
theorem out_ref (r : ρ) (k : κ) (M : ℝ) :
    ibn tt r * x r k + ∑ n, ((Real.exp (logit x tt d r n - M) / ∑ n', Real.exp (logit x tt d r n' - M)) * dc tt r) * d n k
      = out x tt d r k := by
  unfold out
  congr 1
  have hM : 0 < Real.exp (-M) := Real.exp_pos _
  have hZ : (∑ n', Real.exp (logit x tt d r n' - M)) = S0 x tt d r * Real.exp (-M) := by
    unfold S0; rw [Finset.sum_mul]
    exact Finset.sum_congr rfl fun n _ => by rw [sub_eq_add_neg, Real.exp_add]
  have hS : 0 < S0 x tt d r := S0_pos x tt d r
  rw [hZ]
  have : ∀ n, ((Real.exp (logit x tt d r n - M) / (S0 x tt d r * Real.exp (-M))) * dc tt r) * d n k
      = (Real.exp (logit x tt d r n) * d n k) * (dc tt r / S0 x tt d r) := by
    intro n
    rw [sub_eq_add_neg, Real.exp_add]
    field_simp
  rw [Finset.sum_congr rfl fun n _ => this n, ← Finset.sum_mul]
  unfold S1
  field_simp

end Cert.Spec

end
-- ==== Proof.KSums.lean ====
/-
  The streaming softmax over the grid. For a batch row `r`, `T0 r j` and `T1 r k j` are tile `j`'s sums of
  `exp (logit r n)` and `exp (logit r n) * d n k` over its 1000 dataset rows, and `P0 r j`, `P1 r k j` the sums of
  these over the tiles up to `j`. After grid point `t` (row block `t / 100`, tile `t % 100`) the three scratch
  buffers hold, for every local row `p`, a shift, a normaliser and an accumulator satisfying the streaming-softmax
  invariant for `P0`, `P1` at tile `t % 100` — by induction on the point: a first tile resets, a later tile
  continues from the point before, which is in the same row block. At the last tile the sums are the full sums over
  the 100000 dataset rows, and the block stored into the output buffer is the specification's `out`.
-/
import proofs.«117692_j34153579937938_2_alg».proof.Proof.FrPieces
import proofs.«117692_j34153579937938_2_alg».proof.Proof.Blocks
import proofs.«117692_j34153579937938_2_alg».proof.Proof.TileReal
import proofs.«117692_j34153579937938_2_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Lib.OnlineSoftmax Cert.KernelIdeal.PayReal
open scoped BigOperators

variable (x : Fin 1024 → Fin 512 → ℝ) (tt : Fin 1024 → ℝ) (d : Fin 100000 → Fin 512 → ℝ)

/-- `exp (logit r n)` with the dataset row a natural number (zero outside the dataset). -/
def eN (r : Fin 1024) (n : ℕ) : ℝ := if h : n < 100000 then Real.exp (Cert.Spec.logit x tt d r ⟨n, h⟩) else 0
/-- `exp (logit r n) * d n k`, likewise. -/
def evN (r : Fin 1024) (k : Fin 512) (n : ℕ) : ℝ := if h : n < 100000 then Real.exp (Cert.Spec.logit x tt d r ⟨n, h⟩) * d ⟨n, h⟩ k else 0
/-- Tile `j`'s sums. -/
def T0 (r : Fin 1024) (j : ℕ) : ℝ := ∑ q : Fin 1000, eN x tt d r (j * 1000 + q.val)
def T1 (r : Fin 1024) (k : Fin 512) (j : ℕ) : ℝ := ∑ q : Fin 1000, evN x tt d r k (j * 1000 + q.val)
/-- The sums over the tiles up to `j`. -/
def P0 (r : Fin 1024) (j : ℕ) : ℝ := ∑ j' ∈ Finset.range (j + 1), T0 x tt d r j'
def P1 (r : Fin 1024) (k : Fin 512) (j : ℕ) : ℝ := ∑ j' ∈ Finset.range (j + 1), T1 x tt d r k j'

theorem P0_zero (r : Fin 1024) : P0 x tt d r 0 = T0 x tt d r 0 := by unfold P0; rw [Finset.sum_range_one]
theorem P1_zero (r : Fin 1024) (k : Fin 512) : P1 x tt d r k 0 = T1 x tt d r k 0 := by unfold P1; rw [Finset.sum_range_one]
theorem P0_succ (r : Fin 1024) (j : ℕ) : P0 x tt d r (j + 1) = P0 x tt d r j + T0 x tt d r (j + 1) := by
  unfold P0; rw [Finset.sum_range_succ]
theorem P1_succ (r : Fin 1024) (k : Fin 512) (j : ℕ) : P1 x tt d r k (j + 1) = P1 x tt d r k j + T1 x tt d r k (j + 1) := by
  unfold P1; rw [Finset.sum_range_succ]

/-- The sums over all 100 tiles are the sums over the whole dataset. -/
theorem sum_tiles (f : Fin 100000 → ℝ) (g : ℕ → ℝ) (hg : ∀ n (h : n < 100000), g n = f ⟨n, h⟩) :
    ∑ j' ∈ Finset.range 100, ∑ q : Fin 1000, g (j' * 1000 + q.val) = ∑ n : Fin 100000, f n := by
  rw [Finset.sum_range (fun j' => ∑ q : Fin 1000, g (j' * 1000 + q.val))]
  rw [← Fintype.sum_prod_type' (f := fun (a : Fin 100) (q : Fin 1000) => g (a.val * 1000 + q.val))]
  rw [← (finProdFinEquiv (m := 100) (n := 1000)).sum_comp (fun n : Fin (100 * 1000) => f ⟨n.val, n.isLt⟩)]
  refine Finset.sum_congr rfl fun ab _ => ?_
  have hb : ab.1.val * 1000 + ab.2.val < 100000 := by have := ab.1.isLt; have := ab.2.isLt; omega
  rw [hg _ hb]
  exact congrArg f (Fin.ext (by show ab.1.val * 1000 + ab.2.val = ab.2.val + 1000 * ab.1.val; omega))

theorem P0_last (r : Fin 1024) : P0 x tt d r 99 = Cert.Spec.S0 x tt d r := by
  unfold P0 T0 Cert.Spec.S0
  exact sum_tiles _ _ (fun n h => by unfold eN; rw [dif_pos h])
theorem P1_last (r : Fin 1024) (k : Fin 512) : P1 x tt d r k 99 = Cert.Spec.S1 x tt d r k := by
  unfold P1 T1 Cert.Spec.S1
  exact sum_tiles _ _ (fun n h => by unfold evN; rw [dif_pos h])

end Cert.KernelIdeal.Fr

end
-- ==== Proof.KInv.lean ====
/-
  The invariant of the streaming softmax at every grid point, and the output block at a last tile.
-/
import proofs.«117692_j34153579937938_2_alg».proof.Proof.KSums

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Lib.OnlineSoftmax Cert.KernelIdeal.PayReal Cert.KernelIdeal.Tile
open scoped BigOperators

variable (x : Fin 1024 → Fin 512 → ℝ) (tt : Fin 1024 → ℝ) (d : Fin 100000 → Fin 512 → ℝ)

/-- The arrays the region finds hold the real data: the batch rows, the dataset, its squared norms, and the five
    coefficient columns. -/
structure Data (c : Dev nD) : Prop where
  hX : ∀ (p : Fin 1024) (q : Fin 512), V m c main_arg0 (ix2 p q) = ((x p q : ℝ) : EReal)
  hD : ∀ (n : Fin 100000) (k : Fin 512), V m c main_arg2 (ix2 n k) = ((d n k : ℝ) : EReal)
  hN : ∀ n : Fin 100000, V m c main_v29 (ix2 n (0 : Fin 1)) = ((Cert.Spec.nrm d n : ℝ) : EReal)
  hC0 : ∀ r : Fin 1024, V m c main_v26 (ix2 r (0 : Fin 8)) = ((Cert.Spec.c0 x tt r : ℝ) : EReal)
  hC1 : ∀ r : Fin 1024, V m c main_v26 (ix2 r (1 : Fin 8)) = ((Cert.Spec.c1 tt r : ℝ) : EReal)
  hC2 : ∀ r : Fin 1024, V m c main_v26 (ix2 r (2 : Fin 8)) = ((Cert.Spec.c2 tt r : ℝ) : EReal)
  hC3 : ∀ r : Fin 1024, V m c main_v26 (ix2 r (3 : Fin 8)) = ((Cert.Spec.dc tt r : ℝ) : EReal)
  hC4 : ∀ r : Fin 1024, V m c main_v26 (ix2 r (4 : Fin 8)) = ((Cert.Spec.ibn tt r : ℝ) : EReal)

/-- The real data of point `t`'s four blocks. -/
def xr (t : Fin cfg0.N) (p : Fin 512) (k : Fin 512) : ℝ := x (rowOf t p) k
def dr (t : Fin cfg0.N) (n : Fin 1000) (k : Fin 512) : ℝ := d (colOf t n) k
def nr (t : Fin cfg0.N) (n : Fin 1000) : ℝ := Cert.Spec.nrm d (colOf t n)
def cr (t : Fin cfg0.N) (p : Fin 512) : Fin 3 → ℝ := ![Cert.Spec.c0 x tt (rowOf t p), Cert.Spec.c1 tt (rowOf t p), Cert.Spec.c2 tt (rowOf t p)]

variable {m} {x} {tt} {d}

theorem tileReal {c : Dev nD} (hd : Data m x tt d c) (t : Fin cfg0.N) :
    Tile.Real (iblk m c 0 t) (iblk m c 1 t) (iblk m c 2 t) (iblk m c 3 t) (xr x t) (dr d t) (nr d t) (cr x tt t) where
  h0 := fun p k => by rw [blk0_apply, hd.hX]; rfl
  h1 := fun n k => by rw [blk1_apply, hd.hD]; rfl
  h2 := fun n => by rw [blk2_apply, hd.hN]; rfl
  h30 := fun p => by rw [blk3_apply, hd.hC0]; rfl
  h31 := fun p => by rw [blk3_apply, hd.hC1]; rfl
  h32 := fun p => by rw [blk3_apply, hd.hC2]; rfl

theorem tile_logit (t : Fin cfg0.N) (p : Fin 512) (n : Fin 1000) :
    Tile.logit (xr x t) (dr d t) (nr d t) (cr x tt t) p n = Cert.Spec.logit x tt d (rowOf t p) (colOf t n) := rfl

theorem tsum0 (t : Fin cfg0.N) (p : Fin 512) :
    ∑ n, Real.exp (Tile.logit (xr x t) (dr d t) (nr d t) (cr x tt t) p n) = T0 x tt d (rowOf t p) (t.val % 100) := by
  unfold T0
  refine Finset.sum_congr rfl fun n _ => ?_
  unfold eN
  rw [dif_pos (show t.val % 100 * 1000 + n.val < 100000 from (colOf t n).isLt), tile_logit]
  rfl

theorem tsum1 (t : Fin cfg0.N) (p : Fin 512) (k : Fin 512) :
    ∑ n, Real.exp (Tile.logit (xr x t) (dr d t) (nr d t) (cr x tt t) p n) * dr d t n k = T1 x tt d (rowOf t p) k (t.val % 100) := by
  unfold T1
  refine Finset.sum_congr rfl fun n _ => ?_
  unfold evN
  rw [dif_pos (show t.val % 100 * 1000 + n.val < 100000 from (colOf t n).isLt), tile_logit]
  rfl

/-- THE INVARIANT after every point. -/
theorem inv_at {c : Dev nD} (hd : Data m x tt d c) : ∀ (n : ℕ) (t : Fin cfg0.N), t.val = n → ∀ (p k : Fin 512),
    Inv (P0 x tt d (rowOf t p) (t.val % 100)) (P1 x tt d (rowOf t p) k (t.val % 100))
      ((outsAt0 m c t.val t.isLt).2.1 (ix2 p (0 : Fin 1))) ((outsAt0 m c t.val t.isLt).2.2.1 (ix2 p (0 : Fin 1)))
      ((outsAt0 m c t.val t.isLt).2.2.2 (ix2 p k)) := by
  intro n
  induction n using Nat.strong_induction_on with
  | _ n ih =>
    intro t ht p k
    have hN := t_lt t
    by_cases h0 : t.val % 100 = 0
    · have h1 : ¬t.val % 100 = 99 := by omega
      rw [outsAt0_A m c t h0 h1]
      dsimp only
      rw [sA0, sA1, sA2, pay3_eq, pay1_eq]
      have hT := Tile.tile_first (tileReal hd t) (k0_pay5 (F := Ideal)) (k0_pay6 (F := Ideal)) (k0_pay7 (F := Ideal))
        pay5_apply pay6_apply pay7_apply p k
      rw [tsum0, tsum1] at hT
      rw [h0] at hT ⊢
      rw [P0_zero, P1_zero]
      exact hT
    · obtain ⟨j, hj⟩ : ∃ j, t.val % 100 = j + 1 := ⟨t.val % 100 - 1, by omega⟩
      have hlt : t.val - 1 < cfg0.N := Nat.lt_of_le_of_lt (Nat.sub_le _ _) t.isLt
      have ih' := ih (t.val - 1) (by omega) ⟨t.val - 1, hlt⟩ rfl p k
      have hrow : rowOf ⟨t.val - 1, hlt⟩ p = rowOf t p := Fin.ext (by
        show (t.val - 1) / 100 * 512 + p.val = t.val / 100 * 512 + p.val
        omega)
      have hmod : (t.val - 1) % 100 = j := by omega
      rw [hrow] at ih'
      dsimp only at ih'
      rw [hmod] at ih'
      by_cases h1 : t.val % 100 = 99
      · rw [outsAt0_C m c t h0 h1]
        dsimp only
        rw [sC0, sC1, sC2, pay3_eq, pay1_eq]
        have hT := Tile.tile_next (tileReal hd t) _ _ _ p k ih'
        rw [tsum0, tsum1, hj] at hT
        rw [hj, P0_succ, P1_succ]
        exact hT
      · rw [outsAt0_B m c t h0 h1]
        dsimp only
        rw [sB0, sB1, sB2, pay3_eq, pay1_eq]
        have hT := Tile.tile_next (tileReal hd t) _ _ _ p k ih'
        rw [tsum0, tsum1, hj] at hT
        rw [hj, P0_succ, P1_succ]
        exact hT

/-- THE OUTPUT BLOCK at a last tile is the specification's result for the block's rows. -/
theorem out_at {c : Dev nD} (hd : Data m x tt d c) (t : Fin cfg0.N) (h1 : t.val % 100 = 99) (p k : Fin 512) :
    (outsAt0 m c t.val t.isLt).1 (ix2 p k) = ((Cert.Spec.out x tt d (rowOf t p) k : ℝ) : EReal) := by
  have h0 : ¬t.val % 100 = 0 := by omega
  have hI := inv_at hd t.val t rfl p k
  rw [outsAt0_C m c t h0 h1] at hI ⊢
  dsimp only at hI ⊢
  rw [sC0, sC1, sC2] at hI
  rw [sC4]
  rw [h1, P0_last, P1_last] at hI
  rw [Tile.tile_out _ _ _ _ p k (Cert.Spec.ibn tt (rowOf t p)) (Cert.Spec.dc tt (rowOf t p)) (x (rowOf t p) k)
    (by rw [blk3_apply, hd.hC3]) (by rw [blk3_apply, hd.hC4]) (by rw [blk0_apply, hd.hX]) hI (Cert.Spec.S0_pos x tt d _)]
  rfl

end Cert.KernelIdeal.Fr

end
-- ==== Proof.KFinal.lean ====
/-
  The result array after the run. Only the last tile of each row block writes its output block back, and the two
  blocks (rows 0-511 and 512-1023) cover the array; each holds the specification's result for its rows. So the result
  array is the specification's `out`, entry by entry.
-/
import proofs.«117692_j34153579937938_2_alg».proof.Proof.KInv

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx
open scoped BigOperators

variable {x : Fin 1024 → Fin 512 → ℝ} {tt : Fin 1024 → ℝ} {d : Fin 100000 → Fin 512 → ℝ}

/-- The specification's result as an array of extended reals. -/
def G (x : Fin 1024 → Fin 512 → ℝ) (tt : Fin 1024 → ℝ) (d : Fin 100000 → Fin 512 → ℝ) : S1024x512.Idx → EReal :=
  fun i => ((Cert.Spec.out x tt d (i 0) (i 1) : ℝ) : EReal)

variable {m}

/-- What a last tile writes back is its block of `G`. -/
theorem flushed4_eq {c : Dev nD} (hd : Data m x tt d c) (t : Fin cfg0.N) (hf : (cfg0.win 4).flush t = true) :
    (dats m 0 c).flushed 4 t = ((cfg0.win 4).blk t).view.read (Elt Ideal) (G x tt d) := by
  have h1 : t.val % 100 = 99 := (flush0_4 t).mp hf
  show (cfg0.win 4).cut (grid0.coords t) ((dats m 0 c).after 4 t) = _
  rw [after0_4]
  funext j
  obtain ⟨p, k, rfl⟩ : ∃ (p : Fin 512) (k : Fin 512), j = ix2 p k := ⟨j 0, j 1, eq_ix2 j⟩
  show (outsAt0 m c t.val t.isLt).1 (ix2 p k) = G x tt d (((cfg0.win 4).blk t).view.emb (ix2 p k))
  rw [out_at hd t h1 p k]
  unfold G
  obtain ⟨e00, e01, e10, e11, e20, e21, e30, e31, e40, e41⟩ := idx_facts t
  have r0 : (((cfg0.win 4).blk t).view.emb (ix2 p k)) 0 = rowOf t p := Fin.ext (by
    show win0_4.index t (0 : Fin 2) * 512 + 1 * p.val = t.val / 100 * 512 + p.val; omega)
  have r1 : (((cfg0.win 4).blk t).view.emb (ix2 p k)) 1 = k := Fin.ext (by
    show win0_4.index t (1 : Fin 2) * 512 + 1 * k.val = k.val; omega)
  rw [r0, r1]

theorem mem_blk4 (t : Fin cfg0.N) (i : S1024x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v30).slice (win0_4.rect t)).set ↔ _
  rw [View.set_slice_whole, Rect.mem_set_unit]
  exact Iff.rfl

/-- Every entry of the result array lies in the block of the last tile of its row block. -/
theorem cover4 (i : S1024x512.Idx) : ∃ t : Fin cfg0.N, (cfg0.win 4).flush t = true ∧ i ∈ ((cfg0.win 4).blk t).view.set := by
  have hi0 : (i 0).val < 1024 := (i 0).isLt
  have hi1 : (i 1).val < 512 := (i 1).isLt
  have hlt : (i 0).val / 512 * 100 + 99 < cfg0.N := by rw [show cfg0.N = 200 from N_0]; omega
  refine ⟨⟨(i 0).val / 512 * 100 + 99, hlt⟩, (flush0_4 _).mpr (by show ((i 0).val / 512 * 100 + 99) % 100 = 99; omega), ?_⟩
  rw [mem_blk4]
  obtain ⟨e00, e01, e10, e11, e20, e21, e30, e31, e40, e41⟩ := idx_facts ⟨(i 0).val / 512 * 100 + 99, hlt⟩
  have q0 : win0_4.index ⟨(i 0).val / 512 * 100 + 99, hlt⟩ (0 : Fin 2) = ((i 0).val / 512 * 100 + 99) / 100 := e40
  intro a
  match a with
  | ⟨0, _⟩ => show win0_4.index _ (0 : Fin 2) * 512 ≤ (i 0).val ∧ (i 0).val < win0_4.index _ (0 : Fin 2) * 512 + 512; omega
  | ⟨1, _⟩ => show win0_4.index _ (1 : Fin 2) * 512 ≤ (i 1).val ∧ (i 1).val < win0_4.index _ (1 : Fin 2) * 512 + 512; omega

/-- THE RESULT ARRAY after the run is the specification's. -/
theorem final4 {c : Dev nD} (hd : Data m x tt d c) : (dats m 0 c).arrAt 4 cfg0.N = G x tt d :=
  (dats m 0 c).arrAt_eq_of_cover 4 (G x tt d) (fun t hf => flushed4_eq hd t hf) cover4

/-- The run of the idealized kernel program, read: the result array is the specification's, the arguments unchanged. -/
theorem krun (xs : Dev nD → Fin 1024 → Fin 512 → ℝ) (ts : Dev nD → Fin 1024 → ℝ) (ds : Dev nD → Fin 100000 → Fin 512 → ℝ)
    (hd : ∀ c, Data m (xs c) (ts c) (ds c) c) :
    θ_run defs (onTc (τ := τ) (main (F := Ideal))) ⟨m, fun _ => 0, ρ⟩ (fun r => ∀ c : Dev nD,
      r.2.mem ((c.tc : Thread nD τ).loc main_v30) = G (xs c) (ts c) (ds c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final4 (hd c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩) (run_main m ρ)

end Cert.KernelIdeal.Fr

end
-- ==== Proof.HostVals.lean ====
/-
  What the host operations before the region compute, read at an entry.

  Two of the region's operands are written by the program's host operations: the column of the squared norms of the
  dataset rows (the entrywise square, summed along each row, reshaped to a column), and eight coefficient columns per
  batch row (five vectors computed from the times and the batch, each laid as a column, set side by side, and padded
  with three columns on the right). With real inputs and every b = 1 - t nonzero, entry n of the first is the squared
  norm of dataset row n, and the first five entries of row r of the second are c0, c1, c2, 1 + t/b and -1/b.
-/
import proofs.«117692_j34153579937938_2_alg».proof.Proof.FrKit
import proofs.«117692_j34153579937938_2_alg».proof.Proof.Spec
import proofs.«117692_j34153579937938_2_alg».proof.Proof.Consts
import proofs.«117692_j34153579937938_2_alg».proof.Proof.LibOnlineSoftmax
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

set_option maxRecDepth 16384

noncomputable section

namespace Cert.KernelIdeal.HostVals

open Cert.KernelIdeal Cert.KernelIdeal.Gen Cert.KernelIdeal.Fr
open Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ)

/-! ## The squared norms of the dataset rows -/

/-- The squared norms of the dataset rows as a column: the row sums of the entrywise square, reshaped. -/
def normT (x2 : (⟨S100000x512, .f32⟩ : BufTy).Contents (Elt Ideal)) : (⟨S100000x1, .f32⟩ : BufTy).Contents (Elt Ideal) :=
  shapeCast S100000x1 (Host.reduceAdd (F := Ideal) (mulf x2 x2) (constant (F := Ideal) S_ .f32 0x00000000#32) reducesTo_S100000x512_S100000_d1 h_S_) shapeCasts_S100000_S100000x1

/-- The column the region finds is that term of the dataset as launched. -/
theorem V_v29 (c : Dev nD) : (V m c main_v29 : S100000x1.Idx → EReal) = normT (m ((c : Thread nD τ).loc main_arg2)) := by
  dsimp only [Cert.KernelIdeal.Fr.V]
  simp only [hostOps0, hostOps0_1, hostOps0_2, List.flatten_cons, List.flatten_nil, List.append_nil, List.cons_append, List.nil_append]
  after_results
  rfl

/-- Entry n of the column: zero plus the sum over the row of the squares. -/
theorem normT_apply (x2 : (⟨S100000x512, .f32⟩ : BufTy).Contents (Elt Ideal)) (n : Fin 100000) :
    normT x2 (ix2 n (0 : Fin 1)) = Ideal.ofBits .f32 0x00000000#32 + ∑ k : Fin 512, x2 (ix2 n k) * x2 (ix2 n k) := by
  unfold normT
  generalize hy : mulf (F := Ideal) x2 x2 = y0
  refine (shapeCast_apply _ shapeCasts_S100000_S100000x1 (ix2 n (0 : Fin 1)) (ix1 n) ?_).trans ?_
  · rw [Shape.rowMajor_val_one, Shape.rowMajor_val_two]
    show n.val = n.val * 1 + 0
    omega
  · simp only [Host.reduceAdd, Ideal.hostReduceAdd_def]
    rw [Ideal.hostReduceAdd_single reducesTo_S100000x512_S100000_d1 (by decide)]
    refine congrArg (_ + ·) (Finset.sum_congr rfl fun k _ => ?_)
    rw [← hy]
    exact congrArg (fun i => x2 i * x2 i) (funext fun a => Fin.ext (by match a with | ⟨0, _⟩ => rfl | ⟨1, _⟩ => rfl))

/-- With real entries, entry n of the column is the squared norm of row n. -/
theorem normT_real (x2 : (⟨S100000x512, .f32⟩ : BufTy).Contents (Elt Ideal)) (d : Fin 100000 → Fin 512 → ℝ)
    (hD : ∀ (n : Fin 100000) (k : Fin 512), x2 (ix2 n k) = ((d n k : ℝ) : EReal)) (n : Fin 100000) :
    normT x2 (ix2 n (0 : Fin 1)) = ((Cert.Spec.nrm d n : ℝ) : EReal) := by
  rw [normT_apply, Cert.Consts.ofBits_zero]
  unfold Cert.Spec.nrm
  rw [← Cert.Lib.OnlineSoftmax.coe_sum, EReal.coe_zero, zero_add]
  exact Finset.sum_congr rfl fun k _ => by rw [hD n k, EReal.coe_mul]

/-- The squared norm of dataset row n, as the region finds it. -/
theorem norm_apply (c : Dev nD) (d : Fin 100000 → Fin 512 → ℝ)
    (hD : ∀ (n : Fin 100000) (k : Fin 512), m ((c : Thread nD τ).loc main_arg2) (ix2 n k) = ((d n k : ℝ) : EReal))
    (n : Fin 100000) :
    V m c main_v29 (ix2 n (0 : Fin 1)) = ((Cert.Spec.nrm d n : ℝ) : EReal) :=
  (congrFun (V_v29 m c) (ix2 n (0 : Fin 1))).trans (normT_real _ d hD n)

/-! ## The eight coefficient columns -/

section Results

variable {τ' : Topo} {sig' : RefSig} {Val : EltTy → Type}

/-- What an operation of five operands leaves at its result: its function of the five operands' contents, each
    at its own buffer. -/
theorem nary5_result {x a b c e y : Ref sig' .tc}
    (f : ((k : Fin 5) → ((![x, a, b, c, e] : Fin 5 → Ref sig' .tc) k).ty.Contents Val) → y.ty.Contents Val) (hxs hy)
    (F : Valuation τ' sig' Val) :
    (nary (τ := τ') ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

end Results

/-- The constant vector of ones. -/
def oneT : (⟨S1024, .f32⟩ : BufTy).Contents (Elt Ideal) :=
  broadcastInDim S1024 ![] bcast_S_S1024 (constant (F := Ideal) S_ .f32 0x3F800000#32)
/-- The constant vector of minus one half. -/
def nhalfT : (⟨S1024, .f32⟩ : BufTy).Contents (Elt Ideal) :=
  broadcastInDim S1024 ![] bcast_S_S1024 (constant (F := Ideal) S_ .f32 0xBF000000#32)
/-- The constant vector of minus one. -/
def negOneT : (⟨S1024, .f32⟩ : BufTy).Contents (Elt Ideal) :=
  broadcastInDim S1024 ![] bcast_S_S1024 (constant (F := Ideal) S_ .f32 0xBF800000#32)
/-- b = 1 - t. -/
def bT (x1 : (⟨S1024, .f32⟩ : BufTy).Contents (Elt Ideal)) : (⟨S1024, .f32⟩ : BufTy).Contents (Elt Ideal) :=
  subf (F := Ideal) (φ := .f32) oneT x1
/-- The squared norms of the batch rows. -/
def t1T (x0 : (⟨S1024x512, .f32⟩ : BufTy).Contents (Elt Ideal)) : (⟨S1024, .f32⟩ : BufTy).Contents (Elt Ideal) :=
  Host.reduceAdd (F := Ideal) (mulf (F := Ideal) (φ := .f32) x0 x0) (constant (F := Ideal) S_ .f32 0x00000000#32) reducesTo_S1024x512_S1024_d1 h_S_
/-- 1 / (b b). -/
def ib2T (x1 : (⟨S1024, .f32⟩ : BufTy).Contents (Elt Ideal)) : (⟨S1024, .f32⟩ : BufTy).Contents (Elt Ideal) :=
  Host.divf (F := Ideal) (φ := .f32) oneT (mulf (F := Ideal) (φ := .f32) (bT x1) (bT x1))
def c0T (x0 : (⟨S1024x512, .f32⟩ : BufTy).Contents (Elt Ideal)) (x1 : (⟨S1024, .f32⟩ : BufTy).Contents (Elt Ideal)) :
    (⟨S1024, .f32⟩ : BufTy).Contents (Elt Ideal) :=
  mulf (F := Ideal) (φ := .f32) (mulf (F := Ideal) (φ := .f32) nhalfT (ib2T x1)) (t1T x0)
def c1T (x1 : (⟨S1024, .f32⟩ : BufTy).Contents (Elt Ideal)) : (⟨S1024, .f32⟩ : BufTy).Contents (Elt Ideal) :=
  mulf (F := Ideal) (φ := .f32) (ib2T x1) x1
def c2T (x1 : (⟨S1024, .f32⟩ : BufTy).Contents (Elt Ideal)) : (⟨S1024, .f32⟩ : BufTy).Contents (Elt Ideal) :=
  mulf (F := Ideal) (φ := .f32) (mulf (F := Ideal) (φ := .f32) nhalfT (ib2T x1)) (mulf (F := Ideal) (φ := .f32) x1 x1)
def dcT (x1 : (⟨S1024, .f32⟩ : BufTy).Contents (Elt Ideal)) : (⟨S1024, .f32⟩ : BufTy).Contents (Elt Ideal) :=
  addf (F := Ideal) (φ := .f32) oneT (Host.divf (F := Ideal) (φ := .f32) x1 (bT x1))
def ibnT (x1 : (⟨S1024, .f32⟩ : BufTy).Contents (Elt Ideal)) : (⟨S1024, .f32⟩ : BufTy).Contents (Elt Ideal) :=
  Host.divf (F := Ideal) (φ := .f32) negOneT (bT x1)
/-- A vector as a column. -/
def colT (y : (⟨S1024, .f32⟩ : BufTy).Contents (Elt Ideal)) : (⟨S1024x1, .f32⟩ : BufTy).Contents (Elt Ideal) :=
  broadcastInDim S1024x1 ![0] bcast_S1024_S1024x1_0 y
/-- The five columns side by side. -/
def catT (x0 : (⟨S1024x512, .f32⟩ : BufTy).Contents (Elt Ideal)) (x1 : (⟨S1024, .f32⟩ : BufTy).Contents (Elt Ideal)) :
    (⟨S1024x5, .f32⟩ : BufTy).Contents (Elt Ideal) :=
  concatenate S1024x5 1 [⟨S1024x1, colT (c0T x0 x1)⟩, ⟨S1024x1, colT (c1T x1)⟩, ⟨S1024x1, colT (c2T x1)⟩, ⟨S1024x1, colT (dcT x1)⟩, ⟨S1024x1, colT (ibnT x1)⟩]
    concatenates_S1024x1_S1024x1_S1024x1_S1024x1_S1024x1_S1024x5_d1
/-- The five columns followed by three columns of the padding value. -/
def coefT (x0 : (⟨S1024x512, .f32⟩ : BufTy).Contents (Elt Ideal)) (x1 : (⟨S1024, .f32⟩ : BufTy).Contents (Elt Ideal)) :
    (⟨S1024x8, .f32⟩ : BufTy).Contents (Elt Ideal) :=
  pad S1024x8 ![0, 0] ![0, 3] ![0, 0] (catT x0 x1) (sitofp (F := Ideal) .f32 (constantI S_ 32 0#32)) pads_S1024x5_S1024x8_000_030 h_S_

section Results'
variable {τ' : Topo} {sig' : RefSig} {Val : EltTy → Type}
/-- The same statement, with the result's buffer matched up to unfolding. -/
theorem nary5_result' {x a b c e y : Ref sig' .tc}
    (f : ((k : Fin 5) → ((![x, a, b, c, e] : Fin 5 → Ref sig' .tc) k).ty.Contents Val) → y.ty.Contents Val) (hxs hy)
    (F : Valuation τ' sig' Val) :
    (nary (τ := τ') ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F
end Results'

set_option maxHeartbeats 20000000 in
/-- The array the region finds is that term of the batch and the times as launched. -/
theorem V_v26 (c : Dev nD) : (V m c main_v26 : S1024x8.Idx → EReal)
    = coefT (m ((c : Thread nD τ).loc main_arg0)) (m ((c : Thread nD τ).loc main_arg1)) := by
  dsimp only [Cert.KernelIdeal.Fr.V]
  simp only [hostOps0, hostOps0_1, hostOps0_2, List.flatten_cons, List.flatten_nil, List.append_nil, List.cons_append, List.nil_append]
  simp (disch := decide) only [after_cons, after_nil,
      nullary_result', unary_result', binary_result', reshape_result', nary5_result',
      nullary_result_ne', unary_result_ne', binary_result_ne', reshape_result_ne', nary_result_ne']
  rfl

/-! ### The vectors at an entry -/

theorem oneT_apply (r : Fin 1024) : oneT (ix1 r) = ((1 : ℝ) : EReal) := by
  unfold oneT
  generalize hy : constant (F := Ideal) S_ .f32 0x3F800000#32 = y
  refine (broadcastInDim_apply _ bcast_S_S1024 y (ix1 r) (fun a => a.elim0) (fun a => a.elim0)).trans ?_
  rw [← hy]
  exact Cert.Consts.ofBits_one

theorem nhalfT_apply (r : Fin 1024) : nhalfT (ix1 r) = ((-1/2 : ℝ) : EReal) := by
  unfold nhalfT
  generalize hy : constant (F := Ideal) S_ .f32 0xBF000000#32 = y
  refine (broadcastInDim_apply _ bcast_S_S1024 y (ix1 r) (fun a => a.elim0) (fun a => a.elim0)).trans ?_
  rw [← hy]
  exact Cert.Consts.ofBits_neg_half

theorem negOneT_apply (r : Fin 1024) : negOneT (ix1 r) = ((-1 : ℝ) : EReal) := by
  unfold negOneT
  generalize hy : constant (F := Ideal) S_ .f32 0xBF800000#32 = y
  refine (broadcastInDim_apply _ bcast_S_S1024 y (ix1 r) (fun a => a.elim0) (fun a => a.elim0)).trans ?_
  rw [← hy]
  exact Cert.Consts.ofBits_neg_one

section Entries

variable (x0 : (⟨S1024x512, .f32⟩ : BufTy).Contents (Elt Ideal)) (x1 : (⟨S1024, .f32⟩ : BufTy).Contents (Elt Ideal))
variable (x : Fin 1024 → Fin 512 → ℝ) (tt : Fin 1024 → ℝ)
variable (hX : ∀ (p : Fin 1024) (q : Fin 512), x0 (ix2 p q) = ((x p q : ℝ) : EReal))
variable (hT : ∀ p : Fin 1024, x1 (ix1 p) = ((tt p : ℝ) : EReal))

include hT in
theorem bT_apply (r : Fin 1024) : bT x1 (ix1 r) = ((Cert.Spec.b tt r : ℝ) : EReal) := by
  show oneT (ix1 r) - x1 (ix1 r) = _
  rw [oneT_apply, hT, ← EReal.coe_sub]
  rfl

include hX in
theorem t1T_apply (r : Fin 1024) : t1T x0 (ix1 r) = ((Cert.Spec.t1 x r : ℝ) : EReal) := by
  unfold t1T
  generalize hy : mulf (F := Ideal) (φ := .f32) x0 x0 = y0
  simp only [Host.reduceAdd, Ideal.hostReduceAdd_def]
  rw [Ideal.hostReduceAdd_single reducesTo_S1024x512_S1024_d1 (by decide)]
  show Ideal.ofBits .f32 0x00000000#32 + _ = _
  rw [Cert.Consts.ofBits_zero, EReal.coe_zero, zero_add]
  unfold Cert.Spec.t1
  rw [← Cert.Lib.OnlineSoftmax.coe_sum]
  refine Finset.sum_congr rfl fun k _ => ?_
  rw [← hy, EReal.coe_mul, ← hX r k]
  exact congrArg (fun i => x0 i * x0 i) (funext fun a => Fin.ext (by match a with | ⟨0, _⟩ => rfl | ⟨1, _⟩ => rfl))

include hT in
theorem ib2T_apply (r : Fin 1024) (hb : Cert.Spec.b tt r ≠ 0) : ib2T x1 (ix1 r) = ((Cert.Spec.ib2 tt r : ℝ) : EReal) := by
  show Ideal.div (oneT (ix1 r)) (bT x1 (ix1 r) * bT x1 (ix1 r)) = _
  rw [oneT_apply, bT_apply x1 tt hT, ← EReal.coe_mul, Ideal.div_coe (mul_ne_zero hb hb), ← EReal.coe_mul]
  unfold Cert.Spec.ib2
  rw [one_mul]

include hX hT in
theorem c0T_apply (r : Fin 1024) (hb : Cert.Spec.b tt r ≠ 0) : c0T x0 x1 (ix1 r) = ((Cert.Spec.c0 x tt r : ℝ) : EReal) := by
  show (nhalfT (ix1 r) * ib2T x1 (ix1 r)) * t1T x0 (ix1 r) = _
  rw [nhalfT_apply, ib2T_apply x1 tt hT r hb, t1T_apply x0 x hX, ← EReal.coe_mul, ← EReal.coe_mul]
  rfl

include hT in
theorem c1T_apply (r : Fin 1024) (hb : Cert.Spec.b tt r ≠ 0) : c1T x1 (ix1 r) = ((Cert.Spec.c1 tt r : ℝ) : EReal) := by
  show ib2T x1 (ix1 r) * x1 (ix1 r) = _
  rw [ib2T_apply x1 tt hT r hb, hT, ← EReal.coe_mul]
  rfl

include hT in
theorem c2T_apply (r : Fin 1024) (hb : Cert.Spec.b tt r ≠ 0) : c2T x1 (ix1 r) = ((Cert.Spec.c2 tt r : ℝ) : EReal) := by
  show (nhalfT (ix1 r) * ib2T x1 (ix1 r)) * (x1 (ix1 r) * x1 (ix1 r)) = _
  rw [nhalfT_apply, ib2T_apply x1 tt hT r hb, hT, ← EReal.coe_mul, ← EReal.coe_mul, ← EReal.coe_mul]
  rfl

include hT in
theorem dcT_apply (r : Fin 1024) (hb : Cert.Spec.b tt r ≠ 0) : dcT x1 (ix1 r) = ((Cert.Spec.dc tt r : ℝ) : EReal) := by
  show oneT (ix1 r) + Ideal.div (x1 (ix1 r)) (bT x1 (ix1 r)) = _
  rw [oneT_apply, bT_apply x1 tt hT, hT, Ideal.div_coe hb, ← EReal.coe_mul, ← EReal.coe_add]
  unfold Cert.Spec.dc
  rw [← div_eq_mul_one_div]

include hT in
theorem ibnT_apply (r : Fin 1024) (hb : Cert.Spec.b tt r ≠ 0) : ibnT x1 (ix1 r) = ((Cert.Spec.ibn tt r : ℝ) : EReal) := by
  show Ideal.div (negOneT (ix1 r)) (bT x1 (ix1 r)) = _
  rw [negOneT_apply, bT_apply x1 tt hT, Ideal.div_coe hb, ← EReal.coe_mul]
  unfold Cert.Spec.ibn
  rw [← div_eq_mul_one_div]

end Entries

/-! ### The column, the five columns side by side, the padding -/

theorem colT_apply (y : (⟨S1024, .f32⟩ : BufTy).Contents (Elt Ideal)) (r : Fin 1024) :
    colT y (ix2 r (0 : Fin 1)) = y (ix1 r) := by
  unfold colT
  exact broadcastInDim_apply _ bcast_S1024_S1024x1_0 y (ix2 r (0 : Fin 1)) (ix1 r) (fun a => match a with
    | ⟨0, _⟩ => by show r.val = if (1024 : Nat) = 1 then 0 else r.val; rw [if_neg (by decide)])

/-- Five columns set side by side: column J of the result is the J-th of them. -/
theorem cat5_apply (u0 u1 u2 u3 u4 : (⟨S1024x1, .f32⟩ : BufTy).Contents (Elt Ideal)) (r : Fin 1024) :
    concatenate S1024x5 1 [⟨S1024x1, u0⟩, ⟨S1024x1, u1⟩, ⟨S1024x1, u2⟩, ⟨S1024x1, u3⟩, ⟨S1024x1, u4⟩]
        concatenates_S1024x1_S1024x1_S1024x1_S1024x1_S1024x1_S1024x5_d1 (ix2 r (0 : Fin 5)) = u0 (ix2 r (0 : Fin 1))
    ∧ concatenate S1024x5 1 [⟨S1024x1, u0⟩, ⟨S1024x1, u1⟩, ⟨S1024x1, u2⟩, ⟨S1024x1, u3⟩, ⟨S1024x1, u4⟩]
        concatenates_S1024x1_S1024x1_S1024x1_S1024x1_S1024x1_S1024x5_d1 (ix2 r (1 : Fin 5)) = u1 (ix2 r (0 : Fin 1))
    ∧ concatenate S1024x5 1 [⟨S1024x1, u0⟩, ⟨S1024x1, u1⟩, ⟨S1024x1, u2⟩, ⟨S1024x1, u3⟩, ⟨S1024x1, u4⟩]
        concatenates_S1024x1_S1024x1_S1024x1_S1024x1_S1024x1_S1024x5_d1 (ix2 r (2 : Fin 5)) = u2 (ix2 r (0 : Fin 1))
    ∧ concatenate S1024x5 1 [⟨S1024x1, u0⟩, ⟨S1024x1, u1⟩, ⟨S1024x1, u2⟩, ⟨S1024x1, u3⟩, ⟨S1024x1, u4⟩]
        concatenates_S1024x1_S1024x1_S1024x1_S1024x1_S1024x1_S1024x5_d1 (ix2 r (3 : Fin 5)) = u3 (ix2 r (0 : Fin 1))
    ∧ concatenate S1024x5 1 [⟨S1024x1, u0⟩, ⟨S1024x1, u1⟩, ⟨S1024x1, u2⟩, ⟨S1024x1, u3⟩, ⟨S1024x1, u4⟩]
        concatenates_S1024x1_S1024x1_S1024x1_S1024x1_S1024x1_S1024x5_d1 (ix2 r (4 : Fin 5)) = u4 (ix2 r (0 : Fin 1)) := by
  have hi : ∀ (J : Fin 5) (b : Fin S1024x1.rank), b.cast (rfl : S1024x1.rank = S1024x5.rank) ≠ (1 : Fin S1024x5.rank) →
      ((ix2 r (0 : Fin 1) : S1024x1.Idx) b).val = ((ix2 r J : S1024x5.Idx) (b.cast rfl)).val := fun J b hb => by
    match b, hb with
    | ⟨0, _⟩, _ => rfl
    | ⟨1, _⟩, h => exact absurd rfl h
  refine ⟨?_, ?_, ?_, ?_, ?_⟩
  · exact concatenate_apply_piece (1 : Fin S1024x5.rank) _ _ (ix2 r (0 : Fin 5)) 0 (by show (0 : Nat) < 5; omega) S1024x1 u0 rfl rfl 0 rfl
      (ix2 r (0 : Fin 1)) (hi 0) rfl
  · exact concatenate_apply_piece (1 : Fin S1024x5.rank) _ _ (ix2 r (1 : Fin 5)) 1 (by show (1 : Nat) < 5; omega) S1024x1 u1 rfl rfl 1 rfl
      (ix2 r (0 : Fin 1)) (hi 1) rfl
  · exact concatenate_apply_piece (1 : Fin S1024x5.rank) _ _ (ix2 r (2 : Fin 5)) 2 (by show (2 : Nat) < 5; omega) S1024x1 u2 rfl rfl 2 rfl
      (ix2 r (0 : Fin 1)) (hi 2) rfl
  · exact concatenate_apply_piece (1 : Fin S1024x5.rank) _ _ (ix2 r (3 : Fin 5)) 3 (by show (3 : Nat) < 5; omega) S1024x1 u3 rfl rfl 3 rfl
      (ix2 r (0 : Fin 1)) (hi 3) rfl
  · exact concatenate_apply_piece (1 : Fin S1024x5.rank) _ _ (ix2 r (4 : Fin 5)) 4 (by show (4 : Nat) < 5; omega) S1024x1 u4 rfl rfl 4 rfl
      (ix2 r (0 : Fin 1)) (hi 4) rfl

/-- The padding adds columns on the right only: the first five columns are the operand's. -/
theorem pad8_apply (w : (⟨S1024x5, .f32⟩ : BufTy).Contents (Elt Ideal)) (v : (⟨S_, .f32⟩ : BufTy).Contents (Elt Ideal))
    (r : Fin 1024) (J8 : Fin 8) (J : Fin 5) (hJ : J8.val = J.val) :
    pad S1024x8 ![0, 0] ![0, 3] ![0, 0] w v pads_S1024x5_S1024x8_000_030 h_S_ (ix2 r J8) = w (ix2 r J) :=
  pad_apply_of_inside _ _ _ w v pads_S1024x5_S1024x8_000_030 h_S_ (ix2 r J8) (ix2 r J) (fun a => match a with
    | ⟨0, _⟩ => by show r.val = 0 + r.val * (0 + 1); omega
    | ⟨1, _⟩ => by show J8.val = 0 + J.val * (0 + 1); omega)

/-- With real inputs and b nonzero, the first five entries of row r of the padded array are the five coefficients. -/
theorem coefT_real (x0 : (⟨S1024x512, .f32⟩ : BufTy).Contents (Elt Ideal)) (x1 : (⟨S1024, .f32⟩ : BufTy).Contents (Elt Ideal))
    (x : Fin 1024 → Fin 512 → ℝ) (tt : Fin 1024 → ℝ)
    (hX : ∀ (p : Fin 1024) (q : Fin 512), x0 (ix2 p q) = ((x p q : ℝ) : EReal))
    (hT : ∀ p : Fin 1024, x1 (ix1 p) = ((tt p : ℝ) : EReal)) (r : Fin 1024) (hb : Cert.Spec.b tt r ≠ 0) :
    coefT x0 x1 (ix2 r (0 : Fin 8)) = ((Cert.Spec.c0 x tt r : ℝ) : EReal)
    ∧ coefT x0 x1 (ix2 r (1 : Fin 8)) = ((Cert.Spec.c1 tt r : ℝ) : EReal)
    ∧ coefT x0 x1 (ix2 r (2 : Fin 8)) = ((Cert.Spec.c2 tt r : ℝ) : EReal)
    ∧ coefT x0 x1 (ix2 r (3 : Fin 8)) = ((Cert.Spec.dc tt r : ℝ) : EReal)
    ∧ coefT x0 x1 (ix2 r (4 : Fin 8)) = ((Cert.Spec.ibn tt r : ℝ) : EReal) := by
  obtain ⟨h0, h1, h2, h3, h4⟩ := cat5_apply (colT (c0T x0 x1)) (colT (c1T x1)) (colT (c2T x1)) (colT (dcT x1)) (colT (ibnT x1)) r
  refine ⟨?_, ?_, ?_, ?_, ?_⟩
  · exact (pad8_apply (catT x0 x1) _ r (0 : Fin 8) (0 : Fin 5) rfl).trans (h0.trans ((colT_apply _ r).trans (c0T_apply x0 x1 x tt hX hT r hb)))
  · exact (pad8_apply (catT x0 x1) _ r (1 : Fin 8) (1 : Fin 5) rfl).trans (h1.trans ((colT_apply _ r).trans (c1T_apply x1 tt hT r hb)))
  · exact (pad8_apply (catT x0 x1) _ r (2 : Fin 8) (2 : Fin 5) rfl).trans (h2.trans ((colT_apply _ r).trans (c2T_apply x1 tt hT r hb)))
  · exact (pad8_apply (catT x0 x1) _ r (3 : Fin 8) (3 : Fin 5) rfl).trans (h3.trans ((colT_apply _ r).trans (dcT_apply x1 tt hT r hb)))
  · exact (pad8_apply (catT x0 x1) _ r (4 : Fin 8) (4 : Fin 5) rfl).trans (h4.trans ((colT_apply _ r).trans (ibnT_apply x1 tt hT r hb)))

/-- The five coefficients of batch row r, as the region finds them. -/
theorem coef_apply (c : Dev nD) (x : Fin 1024 → Fin 512 → ℝ) (tt : Fin 1024 → ℝ) (hb : ∀ r, Cert.Spec.b tt r ≠ 0)
    (hX : ∀ (p : Fin 1024) (q : Fin 512), m ((c : Thread nD τ).loc main_arg0) (ix2 p q) = ((x p q : ℝ) : EReal))
    (hT : ∀ p : Fin 1024, m ((c : Thread nD τ).loc main_arg1) (ix1 p) = ((tt p : ℝ) : EReal)) (r : Fin 1024) :
    V m c main_v26 (ix2 r (0 : Fin 8)) = ((Cert.Spec.c0 x tt r : ℝ) : EReal)
    ∧ V m c main_v26 (ix2 r (1 : Fin 8)) = ((Cert.Spec.c1 tt r : ℝ) : EReal)
    ∧ V m c main_v26 (ix2 r (2 : Fin 8)) = ((Cert.Spec.c2 tt r : ℝ) : EReal)
    ∧ V m c main_v26 (ix2 r (3 : Fin 8)) = ((Cert.Spec.dc tt r : ℝ) : EReal)
    ∧ V m c main_v26 (ix2 r (4 : Fin 8)) = ((Cert.Spec.ibn tt r : ℝ) : EReal) := by
  have e := V_v26 m c
  obtain ⟨h0, h1, h2, h3, h4⟩ := coefT_real _ _ x tt hX hT r (hb r)
  exact ⟨(congrFun e _).trans h0, (congrFun e _).trans h1, (congrFun e _).trans h2, (congrFun e _).trans h3,
    (congrFun e _).trans h4⟩

end Cert.KernelIdeal.HostVals

end
-- ==== Proof.KData.lean ====
/-
  The arrays the region finds, from real arguments. The batch rows and the dataset are the arguments themselves (no
  host operation writes them); the norms and the coefficient columns are what the host operations before the region
  compute from them.
-/
import proofs.«117692_j34153579937938_2_alg».proof.Proof.KFinal
import proofs.«117692_j34153579937938_2_alg».proof.Proof.HostVals

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

variable {m}

theorem data_of (c : Dev nD) (x : Fin 1024 → Fin 512 → ℝ) (tt : Fin 1024 → ℝ) (d : Fin 100000 → Fin 512 → ℝ)
    (hb : ∀ r, Cert.Spec.b tt r ≠ 0)
    (hX : ∀ (p : Fin 1024) (q : Fin 512), m ((c : Thread nD τ).loc main_arg0) (ix2 p q) = ((x p q : ℝ) : EReal))
    (hT : ∀ p : Fin 1024, m ((c : Thread nD τ).loc main_arg1) (ix1 p) = ((tt p : ℝ) : EReal))
    (hD : ∀ (n : Fin 100000) (k : Fin 512), m ((c : Thread nD τ).loc main_arg2) (ix2 n k) = ((d n k : ℝ) : EReal)) :
    Data m x tt d c where
  hX := fun p q => by rw [V_main_arg0]; exact hX p q
  hD := fun n k => by rw [V_main_arg2]; exact hD n k
  hN := fun n => Cert.KernelIdeal.HostVals.norm_apply m c d hD n
  hC0 := fun r => (Cert.KernelIdeal.HostVals.coef_apply m c x tt hb hX hT r).1
  hC1 := fun r => (Cert.KernelIdeal.HostVals.coef_apply m c x tt hb hX hT r).2.1
  hC2 := fun r => (Cert.KernelIdeal.HostVals.coef_apply m c x tt hb hX hT r).2.2.1
  hC3 := fun r => (Cert.KernelIdeal.HostVals.coef_apply m c x tt hb hX hT r).2.2.2.1
  hC4 := fun r => (Cert.KernelIdeal.HostVals.coef_apply m c x tt hb hX hT r).2.2.2.2

end Cert.KernelIdeal.Fr

end
-- ==== Proof.RefSide.lean ====
/-
  The reference program, read stage by stage on real inputs.

  With real inputs `x`, `t`, `d` and `b = 1 - t` nonzero in every row, every intermediate array of the reference holds
  real numbers: the logit is `Spec.logitR`, the row maximum is some real number, the softmax is
  `exp (L - M) / ∑ exp (L - M)`, each probability is scaled by `1 - (t · (-1)) / b` before the product with the
  dataset, and the result is `(-1 / b) · x` plus that product, which `Spec.out_ref` identifies with `Spec.out`.
-/
import proofs.«117692_j34153579937938_2_alg».proof.Proof.Spec
import proofs.«117692_j34153579937938_2_alg».proof.Proof.Consts
import proofs.«117692_j34153579937938_2_alg».proof.Proof.LibOnlineSoftmax
import proofs.«117692_j34153579937938_2_alg».proof.Proof.Gen.ReferenceIdeal.Read
import Idealize.ShloMosaic.PureOps.Ideal
import Idealize.ShloMosaic.PureOps.Reduce
import Idealize.ShloMosaic.Lib.ValueIdx

noncomputable section

namespace Cert.RefSide

open Cert.ReferenceIdeal Cert.ReferenceIdeal.Read Idealize.ShloMosaic Idealize.ShloMosaic.ValueIdx
open scoped BigOperators

/-- The array types of the three arguments. -/
abbrev BX := (⟨S1024x512, .f32⟩ : BufTy).Contents (Elt Ideal)
abbrev BT := (⟨S1024, .f32⟩ : BufTy).Contents (Elt Ideal)
abbrev BD := (⟨S100000x512, .f32⟩ : BufTy).Contents (Elt Ideal)

/-- The quotient of two real numbers, the divisor nonzero, is the real quotient. -/
theorem div_coe_coe (a : ℝ) {y : ℝ} (h : y ≠ 0) : Ideal.div (a : EReal) (y : EReal) = ((a / y : ℝ) : EReal) := by
  rw [Ideal.div_coe h, ← EReal.coe_mul, mul_one_div]

/-! ## The per-row quantities -/

/-- `b = 1 - t`. -/
theorem v1_at (tt : Fin 1024 → ℝ) (T : BT) (hT : ∀ p : Fin 1024, T (ix1 p) = ((tt p : ℝ) : EReal)) (p : Fin 1024) :
    val_main_v1 (F := Ideal) T (ix1 p) = ((Spec.b tt p : ℝ) : EReal) := by
  rw [val_main_v1_apply, val_main_v0_apply, val_main_cst_apply, Ideal.subf_def, Ideal.ofBits_def, Consts.ofBits_one, hT,
    ← EReal.coe_sub]
  rfl

/-- The constant one. -/
theorem v2_at (p : Fin 1024) : val_main_v2 (F := Ideal) (ix1 p) = ((1 : ℝ) : EReal) := by
  rw [val_main_v2_apply, val_main_cst_0_apply, Ideal.ofBits_def, Consts.ofBits_one]

/-- The constant minus one, as the negation of one. -/
theorem v4_at (p : Fin 1024) : val_main_v4 (F := Ideal) (ix1 p) = ((-1 : ℝ) : EReal) := by
  rw [val_main_v4_apply, val_main_v3_apply, val_main_cst_1_apply, Ideal.hostNegf_def, Ideal.negf_def, Ideal.ofBits_def,
    Consts.ofBits_one, ← EReal.coe_neg]

/-! ## Index functions at coordinates -/

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

/-! ## The logit -/

section Logit
variable (x : Fin 1024 → Fin 512 → ℝ) (tt : Fin 1024 → ℝ) (d : Fin 100000 → Fin 512 → ℝ)
variable (X : BX) (T : BT) (D : BD)
variable (hX : ∀ (p : Fin 1024) (q : Fin 512), X (ix2 p q) = ((x p q : ℝ) : EReal))
variable (hT : ∀ p : Fin 1024, T (ix1 p) = ((tt p : ℝ) : EReal))
variable (hD : ∀ (n : Fin 100000) (k : Fin 512), D (ix2 n k) = ((d n k : ℝ) : EReal))

include hD in
/-- The squared norm of a dataset row. -/
theorem v6_at (n : Fin 100000) : val_main_v6 (F := Ideal) D (ix1 n) = ((Spec.nrm d n : ℝ) : EReal) := by
  rw [val_main_v6_apply, val_main_cst_2_apply, Ideal.ofBits_def, Consts.ofBits_zero]
  have h : ∀ k : Fin 512, val_main_v5 (F := Ideal) D (idx_main_v6 (ix1 n) k) = ((d n k * d n k : ℝ) : EReal) := fun k => by
    have e : idx_main_v6 (ix1 n) k = ix2 n k := by idx2
    rw [e, val_main_v5_apply, Ideal.mulf_def, hD, ← EReal.coe_mul]
  rw [Finset.sum_congr rfl fun k _ => h k, Cert.Lib.OnlineSoftmax.coe_sum, ← EReal.coe_add, zero_add]
  rfl

include hX in
/-- The squared norm of a batch row. -/
theorem v8_at (p : Fin 1024) : val_main_v8 (F := Ideal) X (ix1 p) = ((Spec.t1 x p : ℝ) : EReal) := by
  rw [val_main_v8_apply, val_main_cst_3_apply, Ideal.ofBits_def, Consts.ofBits_zero]
  have h : ∀ k : Fin 512, val_main_v7 (F := Ideal) X (idx_main_v8 (ix1 p) k) = ((x p k * x p k : ℝ) : EReal) := fun k => by
    have e : idx_main_v8 (ix1 p) k = ix2 p k := by idx2
    rw [e, val_main_v7_apply, Ideal.mulf_def, hX, ← EReal.coe_mul]
  rw [Finset.sum_congr rfl fun k _ => h k, Cert.Lib.OnlineSoftmax.coe_sum, ← EReal.coe_add, zero_add]
  rfl

include hX hD in
/-- The inner product of a batch row and a dataset row. -/
theorem v9_at (p : Fin 1024) (n : Fin 100000) :
    val_main_v9 (F := Ideal) X D (ix2 p n) = ((Spec.dot x d p n : ℝ) : EReal) := by
  rw [val_main_v9_apply]
  have h : ∀ k : Fin 512, X (lidx_main_v9 (ix2 p n) k) * D (ridx_main_v9 (ix2 p n) k) = ((x p k * d n k : ℝ) : EReal) :=
    fun k => by
      have e1 : lidx_main_v9 (ix2 p n) k = ix2 p k := by idx2
      have e2 : ridx_main_v9 (ix2 p n) k = ix2 n k := by idx2
      rw [e1, e2, hX, hD, ← EReal.coe_mul]
  rw [Finset.sum_congr rfl fun k _ => h k, Cert.Lib.OnlineSoftmax.coe_sum]
  rfl

include hT in
/-- `2 t`, as a column. -/
theorem v13_at (p : Fin 1024) : val_main_v13 (F := Ideal) T (ix2 p (0 : Fin 1)) = ((2 * tt p : ℝ) : EReal) := by
  have e : idx_main_v11 (ix2 p (0 : Fin 1)) = ix1 p := by idx1
  rw [val_main_v13_apply, val_main_v12_apply, val_main_cst_4_apply, val_main_v11_apply, e, Ideal.mulf_def, Ideal.ofBits_def,
    Consts.ofBits_two, hT, ← EReal.coe_mul]

include hX hT hD in
/-- `(2 t) ⟨x, d⟩`. -/
theorem v15_at (p : Fin 1024) (n : Fin 100000) :
    val_main_v15 (F := Ideal) X T D (ix2 p n) = (((2 * tt p) * Spec.dot x d p n : ℝ) : EReal) := by
  have e : idx_main_v14 (ix2 p n) = ix2 p (0 : Fin 1) := by idx2
  rw [val_main_v15_apply, val_main_v14_apply, e, v13_at tt T hT, v9_at x d X D hX hD, Ideal.mulf_def, ← EReal.coe_mul]

include hX hT hD in
/-- `‖x‖² - (2 t) ⟨x, d⟩`. -/
theorem v17_at (p : Fin 1024) (n : Fin 100000) :
    val_main_v17 (F := Ideal) X T D (ix2 p n) = ((Spec.t1 x p - (2 * tt p) * Spec.dot x d p n : ℝ) : EReal) := by
  have e16 : idx_main_v16 (ix2 p n) = ix2 p (0 : Fin 1) := by idx2
  have e10 : idx_main_v10 (ix2 p (0 : Fin 1)) = ix1 p := by idx1
  rw [val_main_v17_apply, val_main_v16_apply, e16, val_main_v10_apply, e10, v8_at x X hX, v15_at x tt d X T D hX hT hD,
    Ideal.subf_def, ← EReal.coe_sub]

include hT hD in
/-- `(t t) ‖d‖²`. -/
theorem v23_at (p : Fin 1024) (n : Fin 100000) :
    val_main_v23 (F := Ideal) T D (ix2 p n) = (((tt p * tt p) * Spec.nrm d n : ℝ) : EReal) := by
  have e21 : idx_main_v21 (ix2 p n) = ix2 p (0 : Fin 1) := by idx2
  have e19 : idx_main_v19 (ix2 p (0 : Fin 1)) = ix1 p := by idx1
  have e22 : idx_main_v22 (ix2 p n) = ix2 (0 : Fin 1) n := by idx2
  have e20 : idx_main_v20 (ix2 (0 : Fin 1) n) = ix1 n := by idx1
  rw [val_main_v23_apply, val_main_v21_apply, e21, val_main_v19_apply, e19, val_main_v18_apply, val_main_v22_apply, e22,
    val_main_v20_apply, e20, v6_at d D hD, hT]
  simp only [Ideal.mulf_def, ← EReal.coe_mul]

include hX hT hD in
/-- The expanded square `(‖x‖² - (2 t) ⟨x, d⟩) + (t t) ‖d‖²`. -/
theorem v24_at (p : Fin 1024) (n : Fin 100000) :
    val_main_v24 (F := Ideal) X T D (ix2 p n)
      = (((Spec.t1 x p - (2 * tt p) * Spec.dot x d p n) + (tt p * tt p) * Spec.nrm d n : ℝ) : EReal) := by
  rw [val_main_v24_apply, v17_at x tt d X T D hX hT hD, v23_at tt d T D hT hD, Ideal.addf_def, ← EReal.coe_add]

include hT in
/-- `(2 b) b`. -/
theorem v27_at (p : Fin 1024) :
    val_main_v27 (F := Ideal) T (ix1 p) = (((2 * Spec.b tt p) * Spec.b tt p : ℝ) : EReal) := by
  rw [val_main_v27_apply, val_main_v26_apply, val_main_v25_apply, val_main_cst_5_apply, v1_at tt T hT, Ideal.ofBits_def,
    Consts.ofBits_two]
  simp only [Ideal.mulf_def, ← EReal.coe_mul]

include hT in
/-- `-1 / ((2 b) b)`, for `b` nonzero. -/
theorem v29_at (p : Fin 1024) (hb : Spec.b tt p ≠ 0) :
    val_main_v29 (F := Ideal) T (ix1 p) = (((-1) / ((2 * Spec.b tt p) * Spec.b tt p) : ℝ) : EReal) := by
  have h : (2 * Spec.b tt p) * Spec.b tt p ≠ 0 := mul_ne_zero (mul_ne_zero two_ne_zero hb) hb
  rw [val_main_v29_apply, val_main_v28_apply, val_main_cst_6_apply, v27_at tt T hT, Ideal.hostDivf_def, Ideal.ofBits_def,
    Consts.ofBits_neg_one, div_coe_coe _ h]

include hX hT hD in
/-- The logit, in the reference's arrangement. -/
theorem v32_at (p : Fin 1024) (n : Fin 100000) (hb : Spec.b tt p ≠ 0) :
    val_main_v32 (F := Ideal) X T D (ix2 p n) = ((Spec.logitR x tt d p n : ℝ) : EReal) := by
  have e31 : idx_main_v31 (ix2 p n) = ix2 p (0 : Fin 1) := by idx2
  have e30 : idx_main_v30 (ix2 p (0 : Fin 1)) = ix1 p := by idx1
  rw [val_main_v32_apply, val_main_v31_apply, e31, val_main_v30_apply, e30, v29_at tt T hT p hb,
    v24_at x tt d X T D hX hT hD, Ideal.mulf_def, ← EReal.coe_mul]
  rfl

end Logit

/-! ## The row maximum is a real number -/

/-- The greatest of `-∞` and a nonempty family of real numbers is a real number. -/
theorem fold_max_coe {ι : Type*} (s : Finset ι) (g : ι → EReal) (hg : ∀ i, ∃ r : ℝ, g i = (r : EReal))
    (hs : s.Nonempty) : ∃ μ : ℝ, s.fold max ⊥ g = (μ : EReal) := by
  classical
  have hA : ∀ s : Finset ι, s.fold max ⊥ g = ⊥ ∨ ∃ μ : ℝ, s.fold max ⊥ g = (μ : EReal) := by
    intro s
    induction s using Finset.induction_on with
    | empty => exact Or.inl Finset.fold_empty
    | insert a s ha ih =>
      obtain ⟨r, hr⟩ := hg a
      rw [Finset.fold_insert ha, hr]
      rcases ih with h | ⟨μ, h⟩
      · rw [h]; exact Or.inr ⟨r, max_eq_left bot_le⟩
      · rw [h]; exact Or.inr ⟨max r μ, (EReal.coe_strictMono.monotone.map_max).symm⟩
  obtain ⟨a, ha⟩ := hs
  obtain ⟨r, hr⟩ := hg a
  rcases hA s with h | h
  · exfalso
    have hle : g a ≤ s.fold max ⊥ g := (Finset.le_fold_max (g a)).mpr (Or.inr ⟨a, ha, le_rfl⟩)
    rw [h, hr] at hle
    exact absurd (le_bot_iff.mp hle) (EReal.coe_ne_bot r)
  · exact h

section Softmax
variable (x : Fin 1024 → Fin 512 → ℝ) (tt : Fin 1024 → ℝ) (d : Fin 100000 → Fin 512 → ℝ)
variable (X : BX) (T : BT) (D : BD)
variable (hX : ∀ (p : Fin 1024) (q : Fin 512), X (ix2 p q) = ((x p q : ℝ) : EReal))
variable (hT : ∀ p : Fin 1024, T (ix1 p) = ((tt p : ℝ) : EReal))
variable (hD : ∀ (n : Fin 100000) (k : Fin 512), D (ix2 n k) = ((d n k : ℝ) : EReal))

include hX hT hD in
/-- The shift the reference subtracts, the maximum of `-∞` and the row's logits, is a real number. -/
theorem v35_at (hb : ∀ r, Spec.b tt r ≠ 0) (p : Fin 1024) :
    ∃ M : ℝ, val_main_v35 (F := Ideal) X T D (ix1 p) = (M : EReal) := by
  have hreal : ∀ i : S1024x100000.Idx, ∃ r : ℝ, val_main_v32 (F := Ideal) X T D i = (r : EReal) := fun i =>
    ⟨_, (congrArg _ (eq_ix2 i)).trans (v32_at x tt d X T D hX hT hD (i 0) (i 1) (hb (i 0)))⟩
  have h33 : ∃ M : ℝ, val_main_v33 (F := Ideal) X T D (ix1 p) = (M : EReal) := by
    unfold val_main_v33
    generalize val_main_v32 (F := Ideal) X T D = y at hreal ⊢
    haveI : Std.Commutative (FloatOps.maximumf (F := Ideal) (φ := .f32)) := ⟨fun a b => max_comm a b⟩
    haveI : Std.Associative (FloatOps.maximumf (F := Ideal) (φ := .f32)) := ⟨fun a b c => max_assoc a b c⟩
    have key := Host.reduce_eq_fold_single (FloatOps.maximumf (F := Ideal) (φ := .f32)) y (val_main_cst_7 (F := Ideal))
      Facts₀.reducesTo_S1024x100000_S1024_d1 (by decide) Facts₀.h_S_ (ix1 p)
    rw [val_main_cst_7_apply, Ideal.ofBits_def, Consts.ofBits_neg_inf] at key
    rw [key]
    exact fold_max_coe _ _ (fun k => hreal _) ⟨⟨0, by decide⟩, Finset.mem_univ _⟩
  obtain ⟨M, hM⟩ := h33
  refine ⟨M, ?_⟩
  rw [val_main_v35_apply, val_main_v34_apply, val_main_cst_8_apply, hM, Ideal.maximumf_def, Ideal.ofBits_def,
    Consts.ofBits_neg_inf]
  exact max_eq_right bot_le

end Softmax

/-! ## The softmax, the scaled probabilities and the result -/

section Result
variable (x : Fin 1024 → Fin 512 → ℝ) (tt : Fin 1024 → ℝ) (d : Fin 100000 → Fin 512 → ℝ)
variable (X : BX) (T : BT) (D : BD)
variable (hX : ∀ (p : Fin 1024) (q : Fin 512), X (ix2 p q) = ((x p q : ℝ) : EReal))
variable (hT : ∀ p : Fin 1024, T (ix1 p) = ((tt p : ℝ) : EReal))
variable (hD : ∀ (n : Fin 100000) (k : Fin 512), D (ix2 n k) = ((d n k : ℝ) : EReal))
variable (p : Fin 1024) (hb : Spec.b tt p ≠ 0) (M : ℝ) (hM : val_main_v35 (F := Ideal) X T D (ix1 p) = (M : EReal))

include hX hT hD hb hM in
/-- The shifted logit. -/
theorem v38_at (n : Fin 100000) :
    val_main_v38 (F := Ideal) X T D (ix2 p n) = ((Spec.logitR x tt d p n - M : ℝ) : EReal) := by
  have e37 : idx_main_v37 (ix2 p n) = ix2 p (0 : Fin 1) := by idx2
  have e36 : idx_main_v36 (ix2 p (0 : Fin 1)) = ix1 p := by idx1
  rw [val_main_v38_apply, v32_at x tt d X T D hX hT hD p n hb, val_main_v37_apply, e37, val_main_v36_apply, e36, hM,
    Ideal.subf_def, ← EReal.coe_sub]

include hX hT hD hb hM in
/-- Its exponential. -/
theorem v39_at (n : Fin 100000) :
    val_main_v39 (F := Ideal) X T D (ix2 p n) = ((Real.exp (Spec.logitR x tt d p n - M) : ℝ) : EReal) := by
  rw [val_main_v39_apply, v38_at x tt d X T D hX hT hD p hb M hM, Ideal.hostUnary_exp_def, Ideal.exp_coe]

include hX hT hD hb hM in
/-- The row's sum of exponentials. -/
theorem v40_at :
    val_main_v40 (F := Ideal) X T D (ix1 p) = ((∑ n : Fin 100000, Real.exp (Spec.logitR x tt d p n - M) : ℝ) : EReal) := by
  rw [val_main_v40_apply, val_main_cst_9_apply, Ideal.ofBits_def, Consts.ofBits_zero]
  have h : ∀ k : Fin 100000, val_main_v39 (F := Ideal) X T D (idx_main_v40 (ix1 p) k)
      = ((Real.exp (Spec.logitR x tt d p k - M) : ℝ) : EReal) := fun k => by
    have e : idx_main_v40 (ix1 p) k = ix2 p k := by idx2
    rw [e, v39_at x tt d X T D hX hT hD p hb M hM]
  rw [Finset.sum_congr rfl fun k _ => h k, Cert.Lib.OnlineSoftmax.coe_sum, ← EReal.coe_add, zero_add]

include hX hT hD hb hM in
/-- The probability. -/
theorem v43_at (n : Fin 100000) :
    val_main_v43 (F := Ideal) X T D (ix2 p n)
      = ((Real.exp (Spec.logitR x tt d p n - M) / ∑ n' : Fin 100000, Real.exp (Spec.logitR x tt d p n' - M) : ℝ) : EReal) := by
  have e42 : idx_main_v42 (ix2 p n) = ix2 p (0 : Fin 1) := by idx2
  have e41 : idx_main_v41 (ix2 p (0 : Fin 1)) = ix1 p := by idx1
  have hZ : (∑ n' : Fin 100000, Real.exp (Spec.logitR x tt d p n' - M)) ≠ 0 :=
    (Finset.sum_pos (fun n' _ => Real.exp_pos _) ⟨⟨0, by decide⟩, Finset.mem_univ _⟩).ne'
  rw [val_main_v43_apply, v39_at x tt d X T D hX hT hD p hb M hM, val_main_v42_apply, e42, val_main_v41_apply, e41,
    v40_at x tt d X T D hX hT hD p hb M hM, Ideal.hostDivf_def, div_coe_coe _ hZ]

include hT hb in
/-- The factor `1 - (t · (-1)) / b`. -/
theorem v46_at : val_main_v46 (F := Ideal) T (ix1 p) = ((1 - (tt p * (-1)) / Spec.b tt p : ℝ) : EReal) := by
  rw [val_main_v46_apply, v2_at, val_main_v45_apply, val_main_v44_apply, hT, v4_at, v1_at tt T hT, Ideal.mulf_def,
    ← EReal.coe_mul, Ideal.hostDivf_def, div_coe_coe _ hb, Ideal.subf_def, ← EReal.coe_sub]

include hX hT hD hb hM in
/-- The scaled probability. -/
theorem v49_at (n : Fin 100000) :
    val_main_v49 (F := Ideal) X T D (ix2 p n)
      = (((Real.exp (Spec.logitR x tt d p n - M) / ∑ n' : Fin 100000, Real.exp (Spec.logitR x tt d p n' - M))
          * (1 - (tt p * (-1)) / Spec.b tt p) : ℝ) : EReal) := by
  have e48 : idx_main_v48 (ix2 p n) = ix2 p (0 : Fin 1) := by idx2
  have e47 : idx_main_v47 (ix2 p (0 : Fin 1)) = ix1 p := by idx1
  rw [val_main_v49_apply, v43_at x tt d X T D hX hT hD p hb M hM, val_main_v48_apply, e48, val_main_v47_apply, e47,
    v46_at tt T hT p hb, Ideal.mulf_def, ← EReal.coe_mul]

include hX hT hD hb hM in
/-- The product of the scaled probabilities with the dataset. -/
theorem v50_at (q : Fin 512) :
    val_main_v50 (F := Ideal) X T D (ix2 p q)
      = ((∑ n : Fin 100000, ((Real.exp (Spec.logitR x tt d p n - M) / ∑ n' : Fin 100000, Real.exp (Spec.logitR x tt d p n' - M))
          * (1 - (tt p * (-1)) / Spec.b tt p)) * d n q : ℝ) : EReal) := by
  rw [val_main_v50_apply]
  have h : ∀ k : Fin 100000, val_main_v49 (F := Ideal) X T D (lidx_main_v50 (ix2 p q) k) * D (ridx_main_v50 (ix2 p q) k)
      = ((((Real.exp (Spec.logitR x tt d p k - M) / ∑ n' : Fin 100000, Real.exp (Spec.logitR x tt d p n' - M))
          * (1 - (tt p * (-1)) / Spec.b tt p)) * d k q : ℝ) : EReal) := fun k => by
    have e1 : lidx_main_v50 (ix2 p q) k = ix2 p k := by idx2
    have e2 : ridx_main_v50 (ix2 p q) k = ix2 k q := by idx2
    rw [e1, e2, v49_at x tt d X T D hX hT hD p hb M hM, hD, ← EReal.coe_mul]
  rw [Finset.sum_congr rfl fun k _ => h k, Cert.Lib.OnlineSoftmax.coe_sum]

include hX hT hb in
/-- The input row scaled by `-1 / b`. -/
theorem v54_at (q : Fin 512) :
    val_main_v54 (F := Ideal) X T (ix2 p q) = ((((-1) / Spec.b tt p) * x p q : ℝ) : EReal) := by
  have e53 : idx_main_v53 (ix2 p q) = ix2 p (0 : Fin 1) := by idx2
  have e52 : idx_main_v52 (ix2 p (0 : Fin 1)) = ix1 p := by idx1
  rw [val_main_v54_apply, val_main_v53_apply, e53, val_main_v52_apply, e52, val_main_v51_apply, v4_at, v1_at tt T hT,
    Ideal.hostDivf_def, div_coe_coe _ hb, hX, Ideal.mulf_def, ← EReal.coe_mul]

end Result

/-- THE REFERENCE on real inputs with `b = 1 - t` nonzero in every row: its result at `(p, q)` is `Spec.out`. -/
theorem reference_eq (x : Fin 1024 → Fin 512 → ℝ) (tt : Fin 1024 → ℝ) (d : Fin 100000 → Fin 512 → ℝ)
    (hb : ∀ r, Cert.Spec.b tt r ≠ 0)
    (X : (⟨Cert.ReferenceIdeal.S1024x512, .f32⟩ : BufTy).Contents (Elt Ideal))
    (T : (⟨Cert.ReferenceIdeal.S1024, .f32⟩ : BufTy).Contents (Elt Ideal))
    (D : (⟨Cert.ReferenceIdeal.S100000x512, .f32⟩ : BufTy).Contents (Elt Ideal))
    (hX : ∀ (p : Fin 1024) (q : Fin 512), X (ValueIdx.ix2 p q) = ((x p q : ℝ) : EReal))
    (hT : ∀ p : Fin 1024, T (ValueIdx.ix1 p) = ((tt p : ℝ) : EReal))
    (hD : ∀ (n : Fin 100000) (k : Fin 512), D (ValueIdx.ix2 n k) = ((d n k : ℝ) : EReal))
    (p : Fin 1024) (q : Fin 512) :
    Cert.ReferenceIdeal.Read.val_main_v55 (F := Ideal) X T D (ValueIdx.ix2 p q)
      = ((Cert.Spec.out x tt d p q : ℝ) : EReal) := by
  obtain ⟨M, hM⟩ := v35_at x tt d X T D hX hT hD hb p
  rw [val_main_v55_apply, v54_at x tt X T hX hT p (hb p), v50_at x tt d X T D hX hT hD p (hb p) M hM, Ideal.addf_def,
    ← EReal.coe_add]
  refine congrArg _ ?_
  have hL : ∀ n, Spec.logitR x tt d p n = Spec.logit x tt d p n := fun n => Spec.logitR_eq x tt d p n (hb p)
  simp only [hL, Spec.dcR_eq]
  exact Spec.out_ref x tt d p q M

end Cert.RefSide

end
-- ==== Proof.PreReal.lean ====
/-
  The precondition, read back on real numbers.

  The precondition is the conjunction of four "for all entries" tests: the absolute value of every entry of the batch,
  of the times and of the dataset is below `+∞`, and `1 - t` differs from `0` at every row. An extended real whose
  absolute value is below `+∞` is neither infinity, hence a real; with the times real, `1 - t ≠ 0` in the extended
  reals is the same disequality of reals. This module proves: under the precondition the three inputs are (the
  embeddings of) real arrays, and `b = 1 - t` vanishes at no row.
-/
import proofs.«117692_j34153579937938_2_alg».proof.Pre_finite_inputs
import proofs.«117692_j34153579937938_2_alg».proof.Proof.Gen.Pre_finite_inputs
import proofs.«117692_j34153579937938_2_alg».proof.Proof.Spec
import proofs.«117692_j34153579937938_2_alg».proof.Proof.Consts
import Idealize.ShloMosaic.Lib.ReduceAll
import Idealize.ShloMosaic.Lib.ValueIdx
import Idealize.ShloMosaic.Lib.IdealHost

noncomputable section

namespace Cert.PreReal

open Idealize.ShloMosaic Idealize.ShloMosaic.ValueIdx Cert.Pre_finite_inputs

/-- The rank-0 shape has one index. -/
instance : Subsingleton S_.Idx := ⟨fun a b => funext fun d => d.elim0⟩

/-- A comparison "less than" that came out true is the order's strict inequality. -/
theorem lt_of_cmp_olt (u v : EReal) (h : Ideal.cmp .olt u v = 1#1) : u < v := by
  by_contra hlt
  simp [Ideal.cmp, hlt] at h

/-- A comparison "not equal" that came out true is a disequality. -/
theorem ne_of_cmp_une (u v : EReal) (h : Ideal.cmp .une u v = 1#1) : u ≠ v := by
  intro e
  simp [Ideal.cmp, e] at h

/-- An extended real whose absolute value `max v (-v)` is below `+∞` is neither infinity: it is a real. -/
theorem real_of_abs_lt_top (v : EReal) (h : max v (-v) < ⊤) : v = ((v.toReal : ℝ) : EReal) := by
  have h1 : v ≠ ⊤ := fun e => by simp [e] at h
  have h2 : v ≠ ⊥ := fun e => by simp [e] at h
  exact (EReal.coe_toReal h1 h2).symm

/-- The scalar `+∞` broadcast to any shape reads `⊤` everywhere. -/
theorem bcast_top {T : Shape} (hb : S_.BroadcastsInDim T ![]) (j : T.Idx) :
    broadcastInDim T ![] hb (constant (F := Ideal) S_ .f32 0x7F800000#32) j = ⊤ := by
  rw [broadcastInDim_scalar_apply]; exact Cert.Consts.ofBits_pos_inf

/-- The scalar `1.0` broadcast to any shape reads the real one everywhere. -/
theorem bcast_one {T : Shape} (hb : S_.BroadcastsInDim T ![]) (j : T.Idx) :
    broadcastInDim T ![] hb (constant (F := Ideal) S_ .f32 0x3F800000#32) j = ((1 : ℝ) : EReal) := by
  rw [broadcastInDim_scalar_apply]; exact Cert.Consts.ofBits_one

/-- The scalar `0.0` broadcast to any shape reads the real zero everywhere. -/
theorem bcast_zero {T : Shape} (hb : S_.BroadcastsInDim T ![]) (j : T.Idx) :
    broadcastInDim T ![] hb (constant (F := Ideal) S_ .f32 0x00000000#32) j = ((0 : ℝ) : EReal) := by
  rw [broadcastInDim_scalar_apply]; exact Cert.Consts.ofBits_zero

/-- Elementwise `|a| < c` true at an index where `c` reads `+∞`: the element of `a` there is a real. -/
theorem real_of_cmp {s : Shape} (a c : FVec Ideal s .f32) (i : s.Idx) (hc : c i = ⊤)
    (h : cmpf .olt (Host.absf a) c i = 1#1) : a i = (((a i).toReal : ℝ) : EReal) := by
  have h' : Ideal.cmp .olt (max (a i) (-(a i))) (c i) = 1#1 := h
  rw [hc] at h'
  exact real_of_abs_lt_top _ (lt_of_cmp_olt _ _ h')

/-- Elementwise `c1 - a ≠ c0` true at an index where `c1` reads 1, `c0` reads 0 and `a` reads the real `t`:
    `1 - t ≠ 0`. -/
theorem one_sub_ne_zero_of_cmp {s : Shape} (a c1 c0 : FVec Ideal s .f32) (i : s.Idx) (t : ℝ)
    (ha : a i = ((t : ℝ) : EReal)) (h1 : c1 i = ((1 : ℝ) : EReal)) (h0 : c0 i = ((0 : ℝ) : EReal))
    (h : cmpf .une (subf c1 a) c0 i = 1#1) : 1 - t ≠ 0 := by
  have h' : Ideal.cmp .une (c1 i - a i) (c0 i) = 1#1 := h
  rw [ha, h1, h0, ← EReal.coe_sub] at h'
  intro e
  exact ne_of_cmp_une _ _ h' (by rw [e])

/-- The precondition, read back: every entry of the three inputs is a real number, and `1 - t` vanishes at no row. -/
theorem reals_of_pre (a0 : FVec Ideal Cert.Pre_finite_inputs.S1024x512 .f32)
    (a1 : FVec Ideal Cert.Pre_finite_inputs.S1024 .f32)
    (a2 : FVec Ideal Cert.Pre_finite_inputs.S100000x512 .f32)
    (h : Cert.Pre_finite_inputs.fn (F := Ideal) a0 a1 a2 = fun _ => 1#1) :
    ∃ (x : Fin 1024 → Fin 512 → ℝ) (tt : Fin 1024 → ℝ) (d : Fin 100000 → Fin 512 → ℝ),
      (∀ (p : Fin 1024) (q : Fin 512), a0 (ValueIdx.ix2 p q) = ((x p q : ℝ) : EReal)) ∧
      (∀ p : Fin 1024, a1 (ValueIdx.ix1 p) = ((tt p : ℝ) : EReal)) ∧
      (∀ (n : Fin 100000) (k : Fin 512), a2 (ValueIdx.ix2 n k) = ((d n k : ℝ) : EReal)) ∧
      (∀ r : Fin 1024, Cert.Spec.b tt r ≠ 0) := by
  have h0 := congrFun h ValueIdx.ix0
  dsimp only [fn, fn_part1] at h0
  obtain ⟨h123, h4⟩ := IntOp.andi_eq_one.1 (show IntOp.andi _ _ = 1#1 from h0)
  obtain ⟨h12, h3⟩ := IntOp.andi_eq_one.1 (show IntOp.andi _ _ = 1#1 from h123)
  obtain ⟨h1, h2⟩ := IntOp.andi_eq_one.1 (show IntOp.andi _ _ = 1#1 from h12)
  have r0 : ∀ i : S1024x512.Idx, a0 i = (((a0 i).toReal : ℝ) : EReal) := fun i =>
    real_of_cmp a0 _ i (bcast_top _ i) (Host.reduce_andi_all (t := S_) _ _ _ _ _ h1 i)
  have r1 : ∀ i : S1024.Idx, a1 i = (((a1 i).toReal : ℝ) : EReal) := fun i =>
    real_of_cmp a1 _ i (bcast_top _ i) (Host.reduce_andi_all (t := S_) _ _ _ _ _ h2 i)
  have r2 : ∀ i : S100000x512.Idx, a2 i = (((a2 i).toReal : ℝ) : EReal) := fun i =>
    real_of_cmp a2 _ i (bcast_top _ i) (Host.reduce_andi_all (t := S_) _ _ _ _ _ h3 i)
  refine ⟨fun p q => (a0 (ValueIdx.ix2 p q)).toReal, fun p => (a1 (ValueIdx.ix1 p)).toReal,
    fun n k => (a2 (ValueIdx.ix2 n k)).toReal, fun p q => r0 _, fun p => r1 _, fun n k => r2 _, fun r => ?_⟩
  exact one_sub_ne_zero_of_cmp a1 _ _ (ValueIdx.ix1 r) _ (r1 _) (bcast_one _ _) (bcast_zero _ _)
    (Host.reduce_andi_all (t := S_) _ _ _ _ _ h4 (ValueIdx.ix1 r))

end Cert.PreReal

end
-- ==== Proof.lean ====
/-
  The certificate. Three programs: the kernel as printed (word level), its idealization, and the idealized jnp
  reference. The kernel streams a softmax over 100 tiles of the dataset per block of 512 batch rows, carrying a running
  maximum, a normaliser and an accumulator in scratch buffers and rescaling them at each tile; the reference computes the
  softmax in one piece. Under finite inputs with 1 - t nonzero every intermediate is a real number, and both compute
      out r k = (-1/b) x r k + ((sum_n exp(L r n) d n k) / (sum_n exp(L r n))) (1 + t r / b),  b = 1 - t r,
  with L the scaled squared distance of batch row r to dataset row n (Spec.lean). The kernel's side: the launch and the
  body's run at each grid point (FrKit, FrRunA/B/C, FrData, FrBody, and their word-level twins FrW*), what the body leaves
  as its own arithmetic (FrPieces), that arithmetic read at an index (PayReal, TileReal), the streaming invariant over
  the grid (KSums, KInv) and the result array (Blocks, KFinal, HostVals, KData). The reference's side: RefSide. The
  precondition decoded to real witnesses: PreReal. The streaming-softmax law itself: LibOnlineSoftmax.
-/
import proofs.«117692_j34153579937938_2_alg».proof.Defs
import proofs.«117692_j34153579937938_2_alg».proof.Proof.Gen.Kernel
import proofs.«117692_j34153579937938_2_alg».proof.Proof.Gen.KernelIdeal
import proofs.«117692_j34153579937938_2_alg».proof.Proof.Gen.ReferenceIdeal
import proofs.«117692_j34153579937938_2_alg».proof.Proof.Gen.ReferenceIdeal.Run
import proofs.«117692_j34153579937938_2_alg».proof.Proof.Gen.ReferenceIdeal.Read
import proofs.«117692_j34153579937938_2_alg».proof.Proof.Gen.Pre_finite_inputs
import proofs.«117692_j34153579937938_2_alg».proof.Proof.FrWBody
import proofs.«117692_j34153579937938_2_alg».proof.Proof.KData
import proofs.«117692_j34153579937938_2_alg».proof.Proof.RefSide
import proofs.«117692_j34153579937938_2_alg».proof.Proof.PreReal
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's result array of the real arguments. -/
theorem algebraic : Cert.algebraic_KernelIdeal_ReferenceIdeal := by
  intro m ρ m' ρ' hpre hagree
  choose xs ts ds hx ht hd hb using fun c => Cert.PreReal.reals_of_pre _ _ _ (hpre c)
  refine ⟨fun c => Cert.KernelIdeal.Fr.G (xs c) (ts c) (ds c),
    Cert.KernelIdeal.Fr.krun (m := m) ρ xs ts ds (fun c => Cert.KernelIdeal.Fr.data_of c (xs c) (ts c) (ds c) (hb c) (hx c) (ht c) (hd c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, (hagree c).1, (hagree c).2.1, (hagree c).2.2]
  funext i
  obtain ⟨p, q, rfl⟩ : ∃ (p : Fin 1024) (q : Fin 512), i = ix2 p q := ⟨i 0, i 1, eq_ix2 i⟩
  exact Cert.RefSide.reference_eq (xs c) (ts c) (ds c) (hb c) _ _ _ (hx c) (ht c) (hd c) p q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
